-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S64 .f32) (main_arg8 : FVec F S64x40 .f32) (main_arg9 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg8
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S10000x64 : Shape := ⟨2, ![10000, 64]⟩
abbrev S1x64 : Shape := ⟨2, ![1, 64]⟩
abbrev S400x10000 : Shape := ⟨2, ![400, 10000]⟩
abbrev S400x64 : Shape := ⟨2, ![400, 64]⟩
abbrev S10000x40 : Shape := ⟨2, ![10000, 40]⟩
abbrev S400x40 : Shape := ⟨2, ![400, 40]⟩
abbrev S1x40 : Shape := ⟨2, ![1, 40]⟩
abbrev S400 : Shape := ⟨1, ![400]⟩
abbrev S400x1 : Shape := ⟨2, ![400, 1]⟩

abbrev nBuf : Space → Nat
  | .hbm => 20
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x10000, .bf16⟩
  | .hbm, ⟨14, _⟩ => ⟨S1x64, .f32⟩
  | .hbm, ⟨15, _⟩ => ⟨S10000x64, .f32⟩
  | .hbm, ⟨16, _⟩ => ⟨S1x64, .f32⟩
  | .hbm, ⟨17, _⟩ => ⟨S10000x40, .f32⟩
  | .hbm, ⟨18, _⟩ => ⟨S1x40, .f32⟩
  | .hbm, ⟨19, _⟩ => ⟨S10000x40, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S1x64, .f32⟩
  | .local _ .vmem, ⟨7, _⟩ => ⟨S64x64, .f32⟩
  | .local _ .vmem, ⟨8, _⟩ => ⟨S400x64, .f32⟩
  | .local _ .vmem, ⟨9, _⟩ => ⟨S400x64, .f32⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x64, .f32⟩
  | .local _ .vmem, ⟨15, _⟩ => ⟨S1x64, .f32⟩
  | .local _ .vmem, ⟨16, _⟩ => ⟨S64x64, .f32⟩
  | .local _ .vmem, ⟨17, _⟩ => ⟨S400x64, .f32⟩
  | .local _ .vmem, ⟨18, _⟩ => ⟨S400x64, .f32⟩
  | .local _ .vmem, ⟨19, _⟩ => ⟨S400x10000, .bf16⟩
  | .local _ .vmem, ⟨20, _⟩ => ⟨S400x10000, .bf16⟩
  | .local _ .vmem, ⟨21, _⟩ => ⟨S10000x64, .f32⟩
  | .local _ .vmem, ⟨22, _⟩ => ⟨S1x64, .f32⟩
  | .local _ .vmem, ⟨23, _⟩ => ⟨S64x40, .f32⟩
  | .local _ .vmem, ⟨24, _⟩ => ⟨S400x40, .f32⟩
  | .local _ .vmem, ⟨25, _⟩ => ⟨S400x40, .f32⟩
  | .local _ .vmem, ⟨26, _⟩ => ⟨S400x10000, .bf16⟩
  | .local _ .vmem, ⟨27, _⟩ => ⟨S400x10000, .bf16⟩
  | .local _ .vmem, ⟨28, _⟩ => ⟨S10000x40, .f32⟩
  | .local _ .vmem, ⟨29, _⟩ => ⟨S1x40, .f32⟩
  | .local _ .vmem, ⟨30, _⟩ => ⟨S400x40, .f32⟩
  | .local _ .vmem, ⟨31, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  shapeCasts_S400x10000_S400x10000 : S400x10000.ShapeCasts S400x10000
  inb_S64x40_S64x40_0_0 : ∀ a, (![0, 0] : Fin 2 → Nat) a + S64x40.size a ≤ S64x40.size a
  h_S64x40 : 0 < S64x40.numel
  inb_S400x40_S400x40_0_0 : ∀ a, (![0, 0] : Fin 2 → Nat) a + S400x40.size a ≤ S400x40.size a
  h_S400x40 : 0 < S400x40.numel
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x64_S64x40_S400x40_1_0_0_1_n_n_wf : DotDims.WF S400x64 S64x40 S400x40 [1] [0] [0] [1] [] []
  dot_S400x10000_S10000x40_S400x40_1_0_0_1_n_n_wf : DotDims.WF S400x10000 S10000x40 S400x40 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x40.size a ≤ S64x40.size a
  hwx3_3 : ∀ i : grid3.Coords, EltTy.bits .f32 = 32 ∨ (Rect.block (s := S64x40) S64x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x40.size a ≤ S10000x40.size a
  hwx3_4 : ∀ i : grid3.Coords, EltTy.bits .f32 = 32 ∨ (Rect.block (s := S10000x40) S400x40.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x40.size a ≤ S10000x40.size a
  hwx4_1 : ∀ i : grid4.Coords, EltTy.bits .f32 = 32 ∨ (Rect.block (s := S10000x40) S10000x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x40.size a ≤ S10000x40.size a
  hwx4_3 : ∀ i : grid4.Coords, EltTy.bits .f32 = 32 ∨ (Rect.block (s := S10000x40) S400x40.size (cc4_transform_3 i) (hinb4_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S400x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v2_1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S10000x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S400x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S10000x64 : Shape := ⟨2, ![10000, 64]⟩
abbrev S1x64 : Shape := ⟨2, ![1, 64]⟩
abbrev S10000x40 : Shape := ⟨2, ![10000, 40]⟩
abbrev S1x40 : Shape := ⟨2, ![1, 40]⟩
abbrev S_ : Shape := ⟨0, ![]⟩
abbrev S10000 : Shape := ⟨1, ![10000]⟩
abbrev S10000x1 : Shape := ⟨2, ![10000, 1]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S10000x64, .f32⟩
  | .hbm, ⟨11, _⟩ => ⟨S10000x64, .f32⟩
  | .hbm, ⟨12, _⟩ => ⟨S1x64, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S1x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S10000x40, .f32⟩
  | .hbm, ⟨26, _⟩ => ⟨S10000x40, .f32⟩
  | .hbm, ⟨27, _⟩ => ⟨S1x40, .f32⟩
  | .hbm, ⟨28, _⟩ => ⟨S10000x40, .f32⟩
  | .hbm, ⟨29, _⟩ => ⟨S10000x40, .f32⟩
  | .hbm, ⟨30, _⟩ => ⟨S_, .f32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x40, .f32⟩
  | .hbm, ⟨37, _⟩ => ⟨S10000x40, .f32⟩
  | .hbm, ⟨38, _⟩ => ⟨S10000x40, .f32⟩
  | .hbm, ⟨39, _⟩ => ⟨S_, .f32⟩
  | .hbm, ⟨40, _⟩ => ⟨S10000, .f32⟩
  | .hbm, ⟨41, _⟩ => ⟨S10000x1, .f32⟩
  | .hbm, ⟨42, _⟩ => ⟨S10000x1, .f32⟩
  | .hbm, ⟨43, _⟩ => ⟨S10000x40, .f32⟩
  | .hbm, ⟨44, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v20 : Ref sig .tc := ⟨.hbm, 44, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.Spec.lean ====
/-
  The graph-convolution network as a function of its inputs, over the extended reals.

  Matrices are written as functions of a row and a column coordinate. One layer of the network sends the
  activations `X` to `adj · (X · W) + b` (the bias `b` added to every row); four layers are composed and the
  result is normalised row by row with the logarithm of the softmax, `x - max - log (∑ exp (x - max))`, the maximum
  taken over the row starting from `⊥`.

  Both programs compute the layers in the same nesting, `S₀ = h · W_in`, `Xₖ₊₁ = adj · Sₖ + bₖ`, `Sₖ₊₁ = Xₖ₊₁ · Wₖ₊₁`:
  no law of arithmetic is needed to compare them, only this common description of the five sweeps.
-/
import Idealize.ShloMosaic.Lib.ValueIdx
import Idealize.ShloMosaic.PureOps.Ideal

noncomputable section

open scoped BigOperators

namespace Cert.Gcn

open Idealize.ShloMosaic Idealize.ShloMosaic.ValueIdx

/-- A rank-2 array read by its two coordinates. -/
abbrev cur {M N : ℕ} (X : (⟨2, ![M, N]⟩ : Shape).Idx → EReal) : Fin M → Fin N → EReal := fun a b => X (ix2 a b)
/-- A rank-1 array read by its coordinate. -/
abbrev cur1 {N : ℕ} (v : (⟨1, ![N]⟩ : Shape).Idx → EReal) : Fin N → EReal := fun b => v (ix1 b)
/-- A function of two coordinates as a rank-2 array. -/
abbrev unc {M N : ℕ} (f : Fin M → Fin N → EReal) : (⟨2, ![M, N]⟩ : Shape).Idx → EReal := fun i => f (i 0) (i 1)

theorem unc_ix2 {M N : ℕ} (f : Fin M → Fin N → EReal) (a : Fin M) (b : Fin N) : unc f (ix2 a b) = f a b := rfl
theorem unc_cur {M N : ℕ} (X : (⟨2, ![M, N]⟩ : Shape).Idx → EReal) : unc (cur X) = X :=
  funext fun i => congrArg X (eq_ix2 i).symm

/-- The matrix product. -/
def mmf {M K N : ℕ} (A : Fin M → Fin K → EReal) (B : Fin K → Fin N → EReal) : Fin M → Fin N → EReal :=
  fun a b => ∑ c : Fin K, A a c * B c b
/-- A row vector added to every row. -/
def addRow {M N : ℕ} (X : Fin M → Fin N → EReal) (v : Fin N → EReal) : Fin M → Fin N → EReal :=
  fun a b => X a b + v b
/-- The pre-activation of a layer from the support `S = X · W` of the layer below: `adj · S + b`. -/
def logits {n k : ℕ} (adj : Fin n → Fin n → EReal) (S : Fin n → Fin k → EReal) (b : Fin k → EReal) : Fin n → Fin k → EReal :=
  addRow (mmf adj S) b
/-- One sweep over the adjacency: the next layer's support `(adj · S + b) · W`. -/
def sweep {n k l : ℕ} (adj : Fin n → Fin n → EReal) (S : Fin n → Fin k → EReal) (b : Fin k → EReal)
    (W : Fin k → Fin l → EReal) : Fin n → Fin l → EReal :=
  mmf (logits adj S b) W
/-- The largest entry of a row, from `⊥`. -/
def rowMax {M N : ℕ} (X : Fin M → Fin N → EReal) (a : Fin M) : EReal :=
  (Finset.univ : Finset (Fin N)).fold max ⊥ (fun k => X a k)
/-- The logarithm of the softmax of every row, shifted by the row's maximum. -/
def logSoftmax {M N : ℕ} (X : Fin M → Fin N → EReal) : Fin M → Fin N → EReal :=
  fun a b => (X a b - rowMax X a) - Ideal.log (∑ k : Fin N, Ideal.exp (X a k - rowMax X a))

/-- The whole network: four layers and the row-wise log-softmax. -/
def net {n f k l : ℕ} (h : Fin n → Fin f → EReal) (adj : Fin n → Fin n → EReal)
    (W_in : Fin f → Fin k → EReal) (b_in : Fin k → EReal) (W0 : Fin k → Fin k → EReal) (b0 : Fin k → EReal)
    (W1 : Fin k → Fin k → EReal) (b1 : Fin k → EReal) (W_out : Fin k → Fin l → EReal) (b_out : Fin l → EReal) :
    Fin n → Fin l → EReal :=
  logSoftmax (logits adj (sweep adj (sweep adj (sweep adj (mmf h W_in) b_in W0) b0 W1) b1 W_out) b_out)

end Cert.Gcn

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.Region01.lean ====
/-
  The first two kernels of the network, read off their block-wise runs.

  The support kernel has no grid: its one point multiplies the whole feature matrix by the input weights, so the
  array it leaves is the matrix product `h · W_in`.

  The first sweep runs over 25 blocks of 400 rows of the 10000 × 10000 adjacency. At block `t` it stores rows
  `400 t … 400 t + 399` of `(adj · S + b) · W`: entry `(p, q)` of the block is the sum over `k` of
  `((∑ r, adj (400 t + p, r) · S (r, k)) + b k) · W (k, q)`, which depends on the adjacency only through row
  `400 t + p`. It also stores the same rows of the adjacency in a narrower float format, which over the extended
  reals is the adjacency itself. Row `r` of either output is written by point `r / 400`, so the 25 blocks cover the
  arrays and each array ends holding one function of the arrays the kernel found.
-/
import proofs.«181754_g55353538511391_cont_9to1_m_1406_6_alg».proof.Defs
import proofs.«181754_g55353538511391_cont_9to1_m_1406_6_alg».proof.Proof.Gen.KernelIdeal.Frame
import proofs.«181754_g55353538511391_cont_9to1_m_1406_6_alg».proof.Proof.Spec
import proofs.«181754_g55353538511391_cont_9to1_m_1406_6_alg».proof.Proof.LibMatmulIx
import Idealize.ShloMosaic.Lib.Pipeline.Value
import Idealize.ShloMosaic.Lib.ValueLayout

noncomputable section

open scoped BigOperators

namespace Cert.Gcn.Region1

open Idealize.ShloMosaic Idealize.ShloMosaic.TcCoe Idealize.ShloMosaic.ValueIdx Idealize.SL.Sem Cert.KernelIdeal Cert.KernelIdeal.Gen Cert.Gcn

variable (V : (c : Dev nD) → (b : Ref sig .tc) → Buf (Elt Ideal) ((c : Thread nD τ).loc b))

/-- Entry `(p, q)` of the block the body stores: the bias row added to the product of the adjacency rows with the
    support, then multiplied by the weights, written as sums over the two contracted coordinates. -/
theorem pay2_apply (x0 : Vec Ideal S400x10000 .f32) (x1 : Vec Ideal S10000x64 .f32) (x2 : Vec Ideal S1x64 .f32)
    (x3 : Vec Ideal S64x64 .f32) (p : Fin 400) (q : Fin 64) :
    k1_pay2 (F := Ideal) x0 x1 x2 x3 (ix2 p q)
      = ∑ k : Fin 64, ((∑ r : Fin 10000, x0 (ix2 p r) * x1 (ix2 r k)) + x2 (ix2 (0 : Fin 1) k)) * x3 (ix2 k q) := by
  unfold k1_pay2
  refine (Cert.LibMatmulIx.matmul_zero_apply dot_S400x64_S64x64_S400x64_1_0_0_1_n_n_wf none _ x3 p q).trans ?_
  refine Finset.sum_congr rfl fun k _ => ?_
  refine congrArg (· * x3 (ix2 k q)) ?_
  refine (addf_apply _ _ (ix2 p k)).trans ?_
  refine congrArg₂ (· + ·) ?_ ?_
  · refine (Cert.LibMatmulIx.matmul_zero_apply dot_S400x10000_S10000x64_S400x64_1_0_0_1_n_n_wf none x0 _ p k).trans ?_
    refine Finset.sum_congr rfl fun r _ => ?_
    refine congrArg (x0 (ix2 p r) * ·) ?_
    exact congrFun (shapeCast_self x1 shapeCasts_S10000x64_S10000x64) (ix2 r k)
  · refine (broadcastTo_1b_ab_apply _ broadcasts_S1x64_S400x64 p k).trans ?_
    exact congrFun (shapeCast_self x2 shapeCasts_S1x64_S1x64) (ix2 (0 : Fin 1) k)

theorem hz : (![0, 0] : Fin 2 → Nat) = fun _ => 0 := funext fun a => by fin_cases a <;> rfl

/-- The index maps of the six windows over the 25 grid points: the adjacency block, the output block and the copy's
    block sit at block row `t`, column block 0; the support, the bias row and the weights are whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The adjacency block at point `t` holds rows `400 t … 400 t + 399` of the adjacency. -/
theorem blk0_apply (c : Dev nD) (t : Fin cfg1.N) (p : Fin 400) (r : Fin 10000) (a : Fin 10000)
    (ha : a.val = t.val * 400 + p.val) :
    iblk1 V c 0 t (ix2 p r) = (V c main_arg1 : S10000x10000.Idx → EReal) (ix2 a r) := by
  show (V c main_arg1 : S10000x10000.Idx → EReal) (((cfg1.win 0).blk t).view.emb (ix2 p r)) = _
  refine congrArg _ (funext fun ax => Fin.ext ?_)
  obtain ⟨e0, e1, -⟩ := idx_facts t
  match ax with
  | ⟨0, _⟩ => show win1_0.index t (0 : Fin 2) * 400 + 1 * p.val = a.val; omega
  | ⟨1, _⟩ => show win1_0.index t (1 : Fin 2) * 10000 + 1 * r.val = r.val; omega

/-- The support's block is the whole support. -/
theorem blk1_apply (c : Dev nD) (t : Fin cfg1.N) (r : Fin 10000) (k : Fin 64) :
    iblk1 V c 1 t (ix2 r k) = (V c main_v0 : S10000x64.Idx → EReal) (ix2 r k) := by
  show (V c main_v0 : S10000x64.Idx → EReal) (((cfg1.win 1).blk t).view.emb (ix2 r k)) = _
  refine congrArg _ (funext fun ax => Fin.ext ?_)
  obtain ⟨-, -, e0, e1, -⟩ := idx_facts t
  match ax with
  | ⟨0, _⟩ => show win1_1.index t (0 : Fin 2) * 10000 + 1 * r.val = r.val; omega
  | ⟨1, _⟩ => show win1_1.index t (1 : Fin 2) * 64 + 1 * k.val = k.val; omega

/-- The bias row's block is the whole row. -/
theorem blk2_apply (c : Dev nD) (t : Fin cfg1.N) (z : Fin 1) (k : Fin 64) :
    iblk1 V c 2 t (ix2 z k) = (V c main_v1 : S1x64.Idx → EReal) (ix2 z k) := by
  show (V c main_v1 : S1x64.Idx → EReal) (((cfg1.win 2).blk t).view.emb (ix2 z k)) = _
  refine congrArg _ (funext fun ax => Fin.ext ?_)
  obtain ⟨-, -, -, -, e0, e1, -⟩ := idx_facts t
  match ax with
  | ⟨0, _⟩ => show win1_2.index t (0 : Fin 2) * 1 + 1 * z.val = z.val; omega
  | ⟨1, _⟩ => show win1_2.index t (1 : Fin 2) * 64 + 1 * k.val = k.val; omega

/-- The weights' block is the whole matrix. -/
theorem blk3_apply (c : Dev nD) (t : Fin cfg1.N) (k : Fin 64) (q : Fin 64) :
    iblk1 V c 3 t (ix2 k q) = (V c main_arg4 : S64x64.Idx → EReal) (ix2 k q) := by
  show (V c main_arg4 : S64x64.Idx → EReal) (((cfg1.win 3).blk t).view.emb (ix2 k q)) = _
  refine congrArg _ (funext fun ax => Fin.ext ?_)
  obtain ⟨-, -, -, -, -, -, e0, e1, -⟩ := idx_facts t
  match ax with
  | ⟨0, _⟩ => show win1_3.index t (0 : Fin 2) * 64 + 1 * k.val = k.val; omega
  | ⟨1, _⟩ => show win1_3.index t (1 : Fin 2) * 64 + 1 * q.val = q.val; omega

/-- Entry `(p, q)` of the output block at point `t` is entry `(400 t + p, q)` of the output array. -/
theorem emb4_apply (t : Fin cfg1.N) (p : Fin 400) (q : Fin 64) (a : Fin 10000) (ha : a.val = t.val * 400 + p.val) :
    ((cfg1.win 4).blk t).view.emb (ix2 p q) = (ix2 a q : S10000x64.Idx) := by
  refine funext fun ax => Fin.ext ?_
  obtain ⟨-, -, -, -, -, -, -, -, e0, e1, -⟩ := idx_facts t
  match ax with
  | ⟨0, _⟩ => show win1_4.index t (0 : Fin 2) * 400 + 1 * p.val = a.val; omega
  | ⟨1, _⟩ => show win1_4.index t (1 : Fin 2) * 64 + 1 * q.val = q.val; omega

/-- One sweep at an entry, as the two nested sums. -/
theorem sweep_apply {n k l : ℕ} (A : Fin n → Fin n → EReal) (S : Fin n → Fin k → EReal) (b : Fin k → EReal)
    (W : Fin k → Fin l → EReal) (a : Fin n) (q : Fin l) :
    unc (sweep A S b W) (ix2 a q) = ∑ j : Fin k, ((∑ r : Fin n, A a r * S r j) + b j) * W j q := rfl

/-- What the output array of this sweep ends holding. -/
abbrev G4 (c : Dev nD) : S10000x64.Idx → EReal :=
  unc (sweep (cur (V c main_arg1)) (cur (V c main_v0)) (fun b : Fin 64 => V c main_v1 (ix2 (0 : Fin 1) b)) (cur (V c main_arg4)))

/-- Point `t` writes back block `t` of the sweep of the arrays the region finds. -/
theorem flushed4_eq (c : Dev nD) (t : Fin cfg1.N) :
    (dat1 (F := Ideal) V c).flushed 4 t = ((cfg1.win 4).blk t).view.read (Elt Ideal) (G4 V c) := by
  show (cfg1.win 4).cut (grid1.coords t) ((dat1 (F := Ideal) V c).after 4 t) = _
  rw [after1_4]
  unfold out1_4
  rw [View.canon_unit_zero hz]
  simp only [View.ld_unit_zero (S := S400x10000) hz, View.ld_unit_zero (S := S10000x64) hz,
    View.ld_unit_zero (S := S1x64) hz, View.ld_unit_zero (S := S64x64) hz]
  funext j
  obtain ⟨p, q, rfl⟩ : ∃ (p : Fin 400) (q : Fin 64), j = ix2 p q := ⟨j 0, j 1, eq_ix2 j⟩
  have hp : p.val < 400 := p.isLt
  have ht : t.val < 25 := t.isLt
  show k1_pay2 (F := Ideal) (iblk1 V c 0 t) (iblk1 V c 1 t) (iblk1 V c 2 t) (iblk1 V c 3 t) (ix2 p q)
    = G4 V c (((cfg1.win 4).blk t).view.emb (ix2 p q))
  refine (pay2_apply (iblk1 V c 0 t) (iblk1 V c 1 t) (iblk1 V c 2 t) (iblk1 V c 3 t) p q).trans ?_
  obtain ⟨a, ha⟩ : ∃ a : Fin 10000, a.val = t.val * 400 + p.val := ⟨⟨t.val * 400 + p.val, by omega⟩, rfl⟩
  rw [emb4_apply t p q a ha]
  refine Eq.trans ?_ (sweep_apply (cur (V c main_arg1)) (cur (V c main_v0))
    (fun b : Fin 64 => V c main_v1 (ix2 (0 : Fin 1) b)) (cur (V c main_arg4)) a q).symm
  refine Finset.sum_congr rfl fun k _ => ?_
  rw [blk3_apply V c t k q, blk2_apply V c t 0 k]
  refine congrArg (· * _) (congrArg (· + _) ?_)
  refine Finset.sum_congr rfl fun r _ => ?_
  rw [blk0_apply V c t p r a ha, blk1_apply V c t r k]

/-- An index of the output array is in point `t`'s block iff each coordinate is in the block's range on its axis. -/
theorem mem_blk4 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v2_0).slice (win1_4.rect t)).set ↔ _
  rw [View.set_slice_whole, Rect.mem_set_unit]
  exact Iff.rfl

/-- Row `r` of the output array is written by point `r / 400`. -/
theorem cover4 (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ : ∃ t : Fin cfg1.N, t.val = (i 0).val / 400 :=
    ⟨⟨(i 0).val / 400, by show (i 0).val / 400 < grid1.N; rw [N_1]; omega⟩, rfl⟩
  refine ⟨t, flush1_4 t, ?_⟩
  rw [mem_blk4]
  obtain ⟨-, -, -, -, -, -, -, -, e0, e1, -⟩ := idx_facts t
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 64 ≤ (i 1).val ∧ (i 1).val < win1_4.index t (1 : Fin 2) * 64 + 64
    omega

/-- The output array of the first sweep after the region: the sweep of the adjacency, the support, the bias row and
    the weights the region finds. -/
theorem final4 (c : Dev nD) : (dat1 (F := Ideal) V c).arrAt 4 cfg1.N
    = unc (sweep (cur (V c main_arg1)) (cur (V c main_v0)) (fun b : Fin 64 => V c main_v1 (ix2 (0 : Fin 1) b)) (cur (V c main_arg4))) :=
  (dat1 (F := Ideal) V c).arrAt_eq_of_cover 4 (G4 V c) (fun t _ => flushed4_eq V c t) cover4

/-- The narrowed copy of a block: over the extended reals a change of float format leaves every entry as it is. -/
theorem pay1_apply (x0 : Vec Ideal S400x10000 .f32) (p : Fin 400) (r : Fin 10000) :
    k1_pay1 (F := Ideal) x0 (ix2 p r) = x0 (ix2 p r) := rfl

/-- Entry `(p, r)` of the copy's block at point `t` is entry `(400 t + p, r)` of the copy. -/
theorem emb5_apply (t : Fin cfg1.N) (p : Fin 400) (r : Fin 10000) (a : Fin 10000) (ha : a.val = t.val * 400 + p.val) :
    ((cfg1.win 5).blk t).view.emb (ix2 p r) = (ix2 a r : S10000x10000.Idx) := by
  refine funext fun ax => Fin.ext ?_
  obtain ⟨-, -, -, -, -, -, -, -, -, -, e0, e1⟩ := idx_facts t
  match ax with
  | ⟨0, _⟩ => show win1_5.index t (0 : Fin 2) * 400 + 1 * p.val = a.val; omega
  | ⟨1, _⟩ => show win1_5.index t (1 : Fin 2) * 10000 + 1 * r.val = r.val; omega

/-- What the copy ends holding: the adjacency. -/
abbrev G5 (c : Dev nD) : S10000x10000.Idx → EReal := V c main_arg1

/-- Point `t` writes back block `t` of the adjacency into the copy. -/
theorem flushed5_eq (c : Dev nD) (t : Fin cfg1.N) :
    (dat1 (F := Ideal) V c).flushed 5 t = ((cfg1.win 5).blk t).view.read (Elt Ideal) (G5 V c) := by
  show (cfg1.win 5).cut (grid1.coords t) ((dat1 (F := Ideal) V c).after 5 t) = _
  rw [after1_5]
  unfold out1_5
  rw [View.canon_unit_zero hz]
  simp only [View.ld_unit_zero (S := S400x10000) hz]
  funext j
  obtain ⟨p, r, rfl⟩ : ∃ (p : Fin 400) (r : Fin 10000), j = ix2 p r := ⟨j 0, j 1, eq_ix2 j⟩
  have hp : p.val < 400 := p.isLt
  have ht : t.val < 25 := t.isLt
  show k1_pay1 (F := Ideal) (iblk1 V c 0 t) (ix2 p r) = G5 V c (((cfg1.win 5).blk t).view.emb (ix2 p r))
  obtain ⟨a, ha⟩ : ∃ a : Fin 10000, a.val = t.val * 400 + p.val := ⟨⟨t.val * 400 + p.val, by omega⟩, rfl⟩
  rw [emb5_apply t p r a ha]
  exact (pay1_apply (iblk1 V c 0 t) p r).trans (blk0_apply V c t p r a ha)

/-- An index of the copy is in point `t`'s block iff each coordinate is in the block's range on its axis. -/
theorem mem_blk5 (t : Fin cfg1.N) (i : S10000x10000.Idx) :
    i ∈ ((cfg1.win 5).blk t).view.set ↔ ∀ a : Fin 2, win1_5.index t a * S400x10000.size a ≤ (i a).val
      ∧ (i a).val < win1_5.index t a * S400x10000.size a + S400x10000.size a := by
  show i ∈ ((View.whole main_v2_1).slice (win1_5.rect t)).set ↔ _
  rw [View.set_slice_whole, Rect.mem_set_unit]
  exact Iff.rfl

/-- Row `r` of the copy is written by point `r / 400`. -/
theorem cover5 (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  obtain ⟨t, ht⟩ : ∃ t : Fin cfg1.N, t.val = (i 0).val / 400 :=
    ⟨⟨(i 0).val / 400, by show (i 0).val / 400 < grid1.N; rw [N_1]; omega⟩, rfl⟩
  refine ⟨t, flush1_5 t, ?_⟩
  rw [mem_blk5]
  obtain ⟨-, -, -, -, -, -, -, -, -, -, e0, e1⟩ := idx_facts t
  intro a
  match a with
  | ⟨0, _⟩ =>
    show win1_5.index t (0 : Fin 2) * 400 ≤ (i 0).val ∧ (i 0).val < win1_5.index t (0 : Fin 2) * 400 + 400
    omega
  | ⟨1, _⟩ =>
    show win1_5.index t (1 : Fin 2) * 10000 ≤ (i 1).val ∧ (i 1).val < win1_5.index t (1 : Fin 2) * 10000 + 10000
    omega

/-- The narrowed copy of the adjacency after the region is the adjacency the region finds. -/
theorem final5 (c : Dev nD) :
    (dat1 (F := Ideal) V c).arrAt 5 cfg1.N = (V c main_arg1 : S10000x10000.Idx → EReal) :=
  (dat1 (F := Ideal) V c).arrAt_eq_of_cover 5 (G5 V c) (fun t _ => flushed5_eq V c t) cover5

end Cert.Gcn.Region1

namespace Cert.Gcn.Region0

open Idealize.ShloMosaic Idealize.ShloMosaic.TcCoe Idealize.ShloMosaic.ValueIdx Idealize.SL.Sem Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Entry `(a, q)` of what the body stores: the product of the feature matrix with the input weights. -/
theorem pay1_apply (x0 : Vec Ideal S10000x128 .f32) (x1 : Vec Ideal S128x64 .f32) (a : Fin 10000) (q : Fin 64) :
    k0_pay1 (F := Ideal) x0 x1 (ix2 a q) = ∑ k : Fin 128, x0 (ix2 a k) * x1 (ix2 k q) := by
  unfold k0_pay1
  exact Cert.LibMatmulIx.matmul_zero_apply dot_S10000x128_S128x64_S10000x64_1_0_0_1_n_n_wf none x0 x1 a q

/-- The feature matrix's block is the whole matrix. -/
theorem blk0_apply (c : Dev nD) (t : Fin cfg0.N) (a : Fin 10000) (k : Fin 128) :
    iblk0 V c 0 t (ix2 a k) = (V c main_arg0 : S10000x128.Idx → EReal) (ix2 a k) := by
  show (V c main_arg0 : S10000x128.Idx → EReal) (((cfg0.win 0).blk t).view.emb (ix2 a k)) = _
  refine congrArg _ (funext fun ax => Fin.ext ?_)
  match ax with
  | ⟨0, _⟩ => show 0 * 10000 + 1 * a.val = a.val; omega
  | ⟨1, _⟩ => show 0 * 128 + 1 * k.val = k.val; omega

/-- The input weights' block is the whole matrix. -/
theorem blk1_apply (c : Dev nD) (t : Fin cfg0.N) (k : Fin 128) (q : Fin 64) :
    iblk0 V c 1 t (ix2 k q) = (V c main_arg2 : S128x64.Idx → EReal) (ix2 k q) := by
  show (V c main_arg2 : S128x64.Idx → EReal) (((cfg0.win 1).blk t).view.emb (ix2 k q)) = _
  refine congrArg _ (funext fun ax => Fin.ext ?_)
  match ax with
  | ⟨0, _⟩ => show 0 * 128 + 1 * k.val = k.val; omega
  | ⟨1, _⟩ => show 0 * 64 + 1 * q.val = q.val; omega

/-- The output's block is the whole output array. -/
theorem emb2_apply (t : Fin cfg0.N) (a : Fin 10000) (q : Fin 64) :
    ((cfg0.win 2).blk t).view.emb (ix2 a q) = (ix2 a q : S10000x64.Idx) := by
  refine funext fun ax => Fin.ext ?_
  match ax with
  | ⟨0, _⟩ => show 0 * 10000 + 1 * a.val = a.val; omega
  | ⟨1, _⟩ => show 0 * 64 + 1 * q.val = q.val; omega

/-- The matrix product at an entry. -/
theorem mmf_apply {M K N : ℕ} (A : Fin M → Fin K → EReal) (B : Fin K → Fin N → EReal) (a : Fin M) (q : Fin N) :
    unc (mmf A B) (ix2 a q) = ∑ k : Fin K, A a k * B k q := rfl

/-- What the support array ends holding. -/
abbrev G2 (c : Dev nD) : S10000x64.Idx → EReal := unc (mmf (cur (V c main_arg0)) (cur (V c main_arg2)))

/-- The one point writes back the whole product. -/
theorem flushed2_eq (c : Dev nD) (t : Fin cfg0.N) :
    (dat0 (F := Ideal) V c).flushed 2 t = ((cfg0.win 2).blk t).view.read (Elt Ideal) (G2 V c) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x64) hz]
  funext j
  obtain ⟨a, q, rfl⟩ : ∃ (a : Fin 10000) (q : Fin 64), j = ix2 a q := ⟨j 0, j 1, eq_ix2 j⟩
  show k0_pay1 (F := Ideal) (iblk0 V c 0 t) (iblk0 V c 1 t) (ix2 a q) = G2 V c (((cfg0.win 2).blk t).view.emb (ix2 a q))
  refine (pay1_apply (iblk0 V c 0 t) (iblk0 V c 1 t) a q).trans ?_
  rw [emb2_apply t a q]
  refine Eq.trans ?_ (mmf_apply (cur (V c main_arg0)) (cur (V c main_arg2)) a q).symm
  refine Finset.sum_congr rfl fun k _ => ?_
  rw [blk0_apply V c t a k, blk1_apply V c t k q]

/-- An index of the output array is in the one point's block iff each coordinate is in the block's range. -/
theorem mem_blk2 (t : Fin cfg0.N) (i : S10000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- The one point's block is the whole array. -/
theorem cover2 (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  refine ⟨t0_0, flush0_2 t0_0, ?_⟩
  rw [mem_blk2]
  intro a
  match a with
  | ⟨0, _⟩ => show 0 * 10000 ≤ (i 0).val ∧ (i 0).val < 0 * 10000 + 10000; omega
  | ⟨1, _⟩ => show 0 * 64 ≤ (i 1).val ∧ (i 1).val < 0 * 64 + 64; omega

/-- The support array after the region: the feature matrix times the input weights. -/
theorem final2 (c : Dev nD) : (dat0 (F := Ideal) V c).arrAt 2 cfg0.N
    = unc (mmf (cur (V c main_arg0)) (cur (V c main_arg2))) :=
  (dat0 (F := Ideal) V c).arrAt_eq_of_cover 2 (G2 V c) (fun t _ => flushed2_eq V c t) cover2

end Cert.Gcn.Region0

end
-- ==== Proof.Region23.lean ====
/-
  The two middle sweeps of the network, read off the pipelines that compute them.

  Each sweep walks the 10000 rows of the adjacency in 25 blocks of 400 rows. At block `t` the body multiplies the 400
  rows of the adjacency by the whole support array `S` of the layer below, adds the bias row to every row, and
  multiplies the result by the layer's weights `W`; it writes the 400 resulting rows back to rows `400 t … 400 t + 399`
  of the output. So the output array ends holding `(adj · S + b) · W`, the next layer's support: each written block is a
  block of that one function of the arrays, and the 25 blocks cover the rows. The adjacency is read in a narrower float
  format and widened; over the extended reals a change of format is the identity.

  The two sweeps differ only in the width of `W` (64 columns, then 40).
-/
import proofs.«181754_g55353538511391_cont_9to1_m_1406_6_alg».proof.Defs
import proofs.«181754_g55353538511391_cont_9to1_m_1406_6_alg».proof.Proof.Gen.KernelIdeal.Frame
import proofs.«181754_g55353538511391_cont_9to1_m_1406_6_alg».proof.Proof.Spec
import proofs.«181754_g55353538511391_cont_9to1_m_1406_6_alg».proof.Proof.LibMatmulIx
import Idealize.ShloMosaic.Lib.Pipeline.Value
import Idealize.ShloMosaic.Lib.ValueLayout
import Idealize.ShloMosaic.Lib.ValueIdx

noncomputable section

open scoped BigOperators

namespace Cert.Gcn.Region2

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

/-- The body's loads and its store are at offsets zero. -/
theorem zero_offsets : (![0, 0] : Fin 2 → Nat) = fun _ => 0 := funext fun a => by fin_cases a <;> rfl

/-- One entry of the body's result from its four loaded blocks: the row of the first block against the second, the
    bias added, the resulting row against the weights. -/
theorem pay_apply (x0 : FVec Ideal S400x10000 .bf16) (x1 : FVec Ideal S10000x64 .f32) (x2 : FVec Ideal S1x64 .f32)
    (x3 : FVec Ideal S64x64 .f32) (a : Fin 400) (b : Fin 64) :
    k2_pay1 (F := Ideal) x0 x1 x2 x3 (ix2 a b)
      = ∑ k : Fin 64, ((∑ j : Fin 10000, x0 (ix2 a j) * x1 (ix2 j k)) + x2 (ix2 (0 : Fin 1) k)) * x3 (ix2 k b) := by
  unfold k2_pay1
  refine (Cert.LibMatmulIx.matmul_zero_apply _ none _ x3 a b).trans ?_
  refine Finset.sum_congr rfl fun k _ => ?_
  refine congrArg (· * x3 (ix2 k b)) ?_
  refine congrArg₂ (· + ·) ?_ ?_
  · refine (Cert.LibMatmulIx.matmul_zero_apply _ none _ _ a k).trans ?_
    refine Finset.sum_congr rfl fun j _ => ?_
    refine congrArg₂ (· * ·) ?_ ?_
    · exact congrFun (shapeCast_self x0 _) (ix2 a j)
    · exact congrFun (shapeCast_self x1 _) (ix2 j k)
  · refine (broadcastTo_1b_ab_apply _ _ a k).trans ?_
    exact congrFun (shapeCast_self x2 _) (ix2 (0 : Fin 1) k)

/-- The region's result as a function of the arrays it reads, as the region finds them: the next layer's support. -/
abbrev G (c : Dev nD) : S10000x64.Idx → EReal :=
  unc (sweep (cur (V c main_v2_1)) (cur (V c main_v2_0)) (fun b : Fin 64 => V c main_v3 (ix2 (0 : Fin 1) b)) (cur (V c main_arg6)))

/-- One entry of the body's result, when row `a` of the first block is row `r` of the adjacency and the other three
    blocks are the whole arrays: the entry `(r, b)` of `(adj · S + bias) · W`. -/
theorem entry_eq (A : S10000x10000.Idx → EReal) (S : S10000x64.Idx → EReal) (Bv : S1x64.Idx → EReal) (W : S64x64.Idx → EReal)
    (x0 : FVec Ideal S400x10000 .bf16) (x1 : FVec Ideal S10000x64 .f32) (x2 : FVec Ideal S1x64 .f32) (x3 : FVec Ideal S64x64 .f32)
    (a : Fin 400) (b : Fin 64) (r : Fin 10000)
    (h0 : ∀ j : Fin 10000, x0 (ix2 a j) = A (ix2 r j))
    (h1 : ∀ (j : Fin 10000) (k : Fin 64), x1 (ix2 j k) = S (ix2 j k))
    (h2 : ∀ k : Fin 64, x2 (ix2 (0 : Fin 1) k) = Bv (ix2 (0 : Fin 1) k))
    (h3 : ∀ (k : Fin 64) (b : Fin 64), x3 (ix2 k b) = W (ix2 k b)) :
    k2_pay1 (F := Ideal) x0 x1 x2 x3 (ix2 a b)
      = sweep (cur A) (cur S) (fun b : Fin 64 => Bv (ix2 (0 : Fin 1) b)) (cur W) r b := by
  refine (pay_apply x0 x1 x2 x3 a b).trans ?_
  unfold sweep logits addRow mmf
  refine Finset.sum_congr rfl fun k _ => ?_
  refine congrArg₂ (· * ·) (congrArg₂ (· + ·) ?_ (h2 k)) (h3 k b)
  exact Finset.sum_congr rfl fun j _ => congrArg₂ (· * ·) (h0 j) (h1 j k)

/-- The windows' index maps over the grid: the adjacency block and the output block move down with the point, the
    other three windows stay at the whole arrays. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `a` of the adjacency block at point `t` is row `400 t + a` of the adjacency. -/
theorem adj_block_apply (c : Dev nD) (t : Fin cfg2.N) (a : Fin 400) (j : Fin 10000) (r : Fin 10000)
    (hr : r.val = t.val * 400 + a.val) :
    (iblk2 V c 0 t : FVec Ideal S400x10000 .bf16) (ix2 a j) = (V c main_v2_1 : S10000x10000.Idx → EReal) (ix2 r j) := by
  obtain ⟨i0, i1, -⟩ := index_facts t
  unfold iblk2
  rw [View.read_apply]
  show V c main_v2_1 _ = V c main_v2_1 _
  congr 1
  funext ax
  apply Fin.ext
  match ax with
  | ⟨0, _⟩ => show win2_0.index t (0 : Fin 2) * 400 + 1 * a.val = r.val; rw [i0, hr]; omega
  | ⟨1, _⟩ => show win2_0.index t (1 : Fin 2) * 10000 + 1 * j.val = j.val; rw [i1]; omega

/-- The support window's block is the whole support array. -/
theorem support_block_apply (c : Dev nD) (t : Fin cfg2.N) (j : Fin 10000) (k : Fin 64) :
    (iblk2 V c 1 t : FVec Ideal S10000x64 .f32) (ix2 j k) = (V c main_v2_0 : S10000x64.Idx → EReal) (ix2 j k) := by
  obtain ⟨-, -, i0, i1, -⟩ := index_facts t
  unfold iblk2
  rw [View.read_apply]
  show V c main_v2_0 _ = V c main_v2_0 _
  congr 1
  funext ax
  apply Fin.ext
  match ax with
  | ⟨0, _⟩ => show win2_1.index t (0 : Fin 2) * 10000 + 1 * j.val = j.val; rw [i0]; omega
  | ⟨1, _⟩ => show win2_1.index t (1 : Fin 2) * 64 + 1 * k.val = k.val; rw [i1]; omega

/-- The bias window's block is the whole bias row. -/
theorem bias_block_apply (c : Dev nD) (t : Fin cfg2.N) (k : Fin 64) :
    (iblk2 V c 2 t : FVec Ideal S1x64 .f32) (ix2 (0 : Fin 1) k) = (V c main_v3 : S1x64.Idx → EReal) (ix2 (0 : Fin 1) k) := by
  obtain ⟨-, -, -, -, i0, i1, -⟩ := index_facts t
  unfold iblk2
  rw [View.read_apply]
  show V c main_v3 _ = V c main_v3 _
  congr 1
  funext ax
  apply Fin.ext
  match ax with
  | ⟨0, _⟩ => show win2_2.index t (0 : Fin 2) * 1 + 1 * 0 = 0; rw [i0]
  | ⟨1, _⟩ => show win2_2.index t (1 : Fin 2) * 64 + 1 * k.val = k.val; rw [i1]; omega

/-- The weight window's block is the whole weight matrix. -/
theorem weight_block_apply (c : Dev nD) (t : Fin cfg2.N) (k : Fin 64) (b : Fin 64) :
    (iblk2 V c 3 t : FVec Ideal S64x64 .f32) (ix2 k b) = (V c main_arg6 : S64x64.Idx → EReal) (ix2 k b) := by
  obtain ⟨-, -, -, -, -, -, i0, i1, -⟩ := index_facts t
  unfold iblk2
  rw [View.read_apply]
  show V c main_arg6 _ = V c main_arg6 _
  congr 1
  funext ax
  apply Fin.ext
  match ax with
  | ⟨0, _⟩ => show win2_3.index t (0 : Fin 2) * 64 + 1 * k.val = k.val; rw [i0]; omega
  | ⟨1, _⟩ => show win2_3.index t (1 : Fin 2) * 64 + 1 * b.val = b.val; rw [i1]; omega

/-- What point `t` writes back is block `t` of `G`: entry `(a, b)` of the block lies at row `400 t + a` of the array. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero zero_offsets]
  simp only [View.ld_unit_zero (S := S400x10000) zero_offsets, View.ld_unit_zero (S := S10000x64) zero_offsets,
    View.ld_unit_zero (S := S1x64) zero_offsets, View.ld_unit_zero (S := S64x64) zero_offsets]
  funext y
  obtain ⟨a, b, rfl⟩ : ∃ (a : Fin 400) (b : Fin 64), y = ix2 a b := ⟨y 0, y 1, eq_ix2 y⟩
  have ht : t.val < 25 := t.isLt
  have ha : a.val < 400 := a.isLt
  have hr : t.val * 400 + a.val < 10000 := by omega
  obtain ⟨-, -, -, -, -, -, -, -, i0, i1⟩ := index_facts t
  have hemb : ((cfg2.win 4).blk t).view.emb (ix2 a b) = ix2 (⟨t.val * 400 + a.val, hr⟩ : Fin 10000) b := by
    funext ax
    apply Fin.ext
    match ax with
    | ⟨0, _⟩ => show win2_4.index t (0 : Fin 2) * 400 + 1 * a.val = t.val * 400 + a.val; rw [i0]; omega
    | ⟨1, _⟩ => show win2_4.index t (1 : Fin 2) * 64 + 1 * b.val = b.val; rw [i1]; omega
  have hcut : (win2 4).xinj (grid2.coords t) (ix2 a b) = ix2 a b := by
    funext ax
    match ax with
    | ⟨0, _⟩ => rfl
    | ⟨1, _⟩ => rfl
  show k2_pay1 (F := Ideal) (iblk2 V c 0 t) (iblk2 V c 1 t) (iblk2 V c 2 t) (iblk2 V c 3 t) ((win2 4).xinj (grid2.coords t) (ix2 a b))
    = G V c (((cfg2.win 4).blk t).view.emb (ix2 a b))
  rw [hemb, hcut]
  exact entry_eq (V c main_v2_1) (V c main_v2_0) (V c main_v3) (V c main_arg6)
    (iblk2 V c 0 t) (iblk2 V c 1 t) (iblk2 V c 2 t) (iblk2 V c 3 t) a b ⟨t.val * 400 + a.val, hr⟩
    (fun j => adj_block_apply V c t a j ⟨t.val * 400 + a.val, hr⟩ rfl)
    (fun j k => support_block_apply V c t j k)
    (fun k => bias_block_apply V c t k)
    (fun k b => weight_block_apply V c t k b)

/-- An index of the array is in point `t`'s block iff each coordinate is in the block's range on its axis. -/
theorem mem_blk (t : Fin cfg2.N) (i : S10000x64.Idx) :
    i ∈ ((cfg2.win 4).blk t).view.set ↔ ∀ a : Fin 2, win2_4.index t a * S400x64.size a ≤ (i a).val ∧ (i a).val < win2_4.index t a * S400x64.size a + S400x64.size a := by
  show i ∈ ((View.whole main_v4).slice (win2_4.rect t)).set ↔ _
  rw [View.set_slice_whole, Rect.mem_set_unit]
  exact Iff.rfl

/-- Every row of the array lies in the block of the point `row / 400`. -/
theorem cover (i : S10000x64.Idx) : ∃ t : Fin cfg2.N, (cfg2.win 4).flush t = true ∧ i ∈ ((cfg2.win 4).blk t).view.set := by
  have hi0 : (i 0).val < 10000 := (i 0).isLt
  have hi1 : (i 1).val < 64 := (i 1).isLt
  have hq : (i 0).val / 400 < 25 := by omega
  refine ⟨⟨(i 0).val / 400, hq⟩, flush2_4 _, ?_⟩
  rw [mem_blk]
  obtain ⟨-, -, -, -, -, -, -, -, i0, i1⟩ := index_facts ⟨(i 0).val / 400, hq⟩
  intro a
  match a with
  | ⟨0, _⟩ =>
    show win2_4.index ⟨(i 0).val / 400, hq⟩ (0 : Fin 2) * 400 ≤ (i 0).val ∧ (i 0).val < win2_4.index ⟨(i 0).val / 400, hq⟩ (0 : Fin 2) * 400 + 400
    rw [i0]
    show (i 0).val / 400 * 400 ≤ (i 0).val ∧ (i 0).val < (i 0).val / 400 * 400 + 400
    omega
  | ⟨1, _⟩ =>
    show win2_4.index ⟨(i 0).val / 400, hq⟩ (1 : Fin 2) * 64 ≤ (i 1).val ∧ (i 1).val < win2_4.index ⟨(i 0).val / 400, hq⟩ (1 : Fin 2) * 64 + 64
    rw [i1]
    omega

/-- The array the region writes ends holding the next layer's support: every block written is a block of `G`, and
    the blocks cover the array. -/
theorem final4 (c : Dev nD) : (dat2 (F := Ideal) V c).arrAt 4 cfg2.N
    = unc (sweep (cur (V c main_v2_1)) (cur (V c main_v2_0)) (fun b : Fin 64 => V c main_v3 (ix2 (0 : Fin 1) b)) (cur (V c main_arg6))) :=
  (dat2 (F := Ideal) V c).arrAt_eq_of_cover 4 (G V c) (fun t _ => flushed_eq V c t) cover

end Cert.Gcn.Region2

namespace Cert.Gcn.Region3

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

/-- The body's loads and its store are at offsets zero. -/
theorem zero_offsets : (![0, 0] : Fin 2 → Nat) = fun _ => 0 := funext fun a => by fin_cases a <;> rfl

/-- One entry of the body's result from its four loaded blocks: the row of the first block against the second, the
    bias added, the resulting row against the weights. -/
theorem pay_apply (x0 : FVec Ideal S400x10000 .bf16) (x1 : FVec Ideal S10000x64 .f32) (x2 : FVec Ideal S1x64 .f32)
    (x3 : FVec Ideal S64x40 .f32) (a : Fin 400) (b : Fin 40) :
    k3_pay1 (F := Ideal) x0 x1 x2 x3 (ix2 a b)
      = ∑ k : Fin 64, ((∑ j : Fin 10000, x0 (ix2 a j) * x1 (ix2 j k)) + x2 (ix2 (0 : Fin 1) k)) * x3 (ix2 k b) := by
  unfold k3_pay1
  refine (Cert.LibMatmulIx.matmul_zero_apply _ none _ x3 a b).trans ?_
  refine Finset.sum_congr rfl fun k _ => ?_
  refine congrArg (· * x3 (ix2 k b)) ?_
  refine congrArg₂ (· + ·) ?_ ?_
  · refine (Cert.LibMatmulIx.matmul_zero_apply _ none _ _ a k).trans ?_
    refine Finset.sum_congr rfl fun j _ => ?_
    refine congrArg₂ (· * ·) ?_ ?_
    · exact congrFun (shapeCast_self x0 _) (ix2 a j)
    · exact congrFun (shapeCast_self x1 _) (ix2 j k)
  · refine (broadcastTo_1b_ab_apply _ _ a k).trans ?_
    exact congrFun (shapeCast_self x2 _) (ix2 (0 : Fin 1) k)

/-- The region's result as a function of the arrays it reads, as the region finds them: the next layer's support. -/
abbrev G (c : Dev nD) : S10000x40.Idx → EReal :=
  unc (sweep (cur (V c main_v2_1)) (cur (V c main_v4)) (fun b : Fin 64 => V c main_v5 (ix2 (0 : Fin 1) b)) (cur (V c main_arg8)))

/-- One entry of the body's result, when row `a` of the first block is row `r` of the adjacency and the other three
    blocks are the whole arrays: the entry `(r, b)` of `(adj · S + bias) · W`. -/
theorem entry_eq (A : S10000x10000.Idx → EReal) (S : S10000x64.Idx → EReal) (Bv : S1x64.Idx → EReal) (W : S64x40.Idx → EReal)
    (x0 : FVec Ideal S400x10000 .bf16) (x1 : FVec Ideal S10000x64 .f32) (x2 : FVec Ideal S1x64 .f32) (x3 : FVec Ideal S64x40 .f32)
    (a : Fin 400) (b : Fin 40) (r : Fin 10000)
    (h0 : ∀ j : Fin 10000, x0 (ix2 a j) = A (ix2 r j))
    (h1 : ∀ (j : Fin 10000) (k : Fin 64), x1 (ix2 j k) = S (ix2 j k))
    (h2 : ∀ k : Fin 64, x2 (ix2 (0 : Fin 1) k) = Bv (ix2 (0 : Fin 1) k))
    (h3 : ∀ (k : Fin 64) (b : Fin 40), x3 (ix2 k b) = W (ix2 k b)) :
    k3_pay1 (F := Ideal) x0 x1 x2 x3 (ix2 a b)
      = sweep (cur A) (cur S) (fun b : Fin 64 => Bv (ix2 (0 : Fin 1) b)) (cur W) r b := by
  refine (pay_apply x0 x1 x2 x3 a b).trans ?_
  unfold sweep logits addRow mmf
  refine Finset.sum_congr rfl fun k _ => ?_
  refine congrArg₂ (· * ·) (congrArg₂ (· + ·) ?_ (h2 k)) (h3 k b)
  exact Finset.sum_congr rfl fun j _ => congrArg₂ (· * ·) (h0 j) (h1 j k)

/-- The windows' index maps over the grid: the adjacency block and the output block move down with the point, the
    other three windows stay at the whole arrays. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `a` of the adjacency block at point `t` is row `400 t + a` of the adjacency. -/
theorem adj_block_apply (c : Dev nD) (t : Fin cfg3.N) (a : Fin 400) (j : Fin 10000) (r : Fin 10000)
    (hr : r.val = t.val * 400 + a.val) :
    (iblk3 V c 0 t : FVec Ideal S400x10000 .bf16) (ix2 a j) = (V c main_v2_1 : S10000x10000.Idx → EReal) (ix2 r j) := by
  obtain ⟨i0, i1, -⟩ := index_facts t
  unfold iblk3
  rw [View.read_apply]
  show V c main_v2_1 _ = V c main_v2_1 _
  congr 1
  funext ax
  apply Fin.ext
  match ax with
  | ⟨0, _⟩ => show win3_0.index t (0 : Fin 2) * 400 + 1 * a.val = r.val; rw [i0, hr]; omega
  | ⟨1, _⟩ => show win3_0.index t (1 : Fin 2) * 10000 + 1 * j.val = j.val; rw [i1]; omega

/-- The support window's block is the whole support array. -/
theorem support_block_apply (c : Dev nD) (t : Fin cfg3.N) (j : Fin 10000) (k : Fin 64) :
    (iblk3 V c 1 t : FVec Ideal S10000x64 .f32) (ix2 j k) = (V c main_v4 : S10000x64.Idx → EReal) (ix2 j k) := by
  obtain ⟨-, -, i0, i1, -⟩ := index_facts t
  unfold iblk3
  rw [View.read_apply]
  show V c main_v4 _ = V c main_v4 _
  congr 1
  funext ax
  apply Fin.ext
  match ax with
  | ⟨0, _⟩ => show win3_1.index t (0 : Fin 2) * 10000 + 1 * j.val = j.val; rw [i0]; omega
  | ⟨1, _⟩ => show win3_1.index t (1 : Fin 2) * 64 + 1 * k.val = k.val; rw [i1]; omega

/-- The bias window's block is the whole bias row. -/
theorem bias_block_apply (c : Dev nD) (t : Fin cfg3.N) (k : Fin 64) :
    (iblk3 V c 2 t : FVec Ideal S1x64 .f32) (ix2 (0 : Fin 1) k) = (V c main_v5 : S1x64.Idx → EReal) (ix2 (0 : Fin 1) k) := by
  obtain ⟨-, -, -, -, i0, i1, -⟩ := index_facts t
  unfold iblk3
  rw [View.read_apply]
  show V c main_v5 _ = V c main_v5 _
  congr 1
  funext ax
  apply Fin.ext
  match ax with
  | ⟨0, _⟩ => show win3_2.index t (0 : Fin 2) * 1 + 1 * 0 = 0; rw [i0]
  | ⟨1, _⟩ => show win3_2.index t (1 : Fin 2) * 64 + 1 * k.val = k.val; rw [i1]; omega

/-- The weight window's block is the whole weight matrix. -/
theorem weight_block_apply (c : Dev nD) (t : Fin cfg3.N) (k : Fin 64) (b : Fin 40) :
    (iblk3 V c 3 t : FVec Ideal S64x40 .f32) (ix2 k b) = (V c main_arg8 : S64x40.Idx → EReal) (ix2 k b) := by
  obtain ⟨-, -, -, -, -, -, i0, i1, -⟩ := index_facts t
  unfold iblk3
  rw [View.read_apply]
  show V c main_arg8 _ = V c main_arg8 _
  congr 1
  funext ax
  apply Fin.ext
  match ax with
  | ⟨0, _⟩ => show win3_3.index t (0 : Fin 2) * 64 + 1 * k.val = k.val; rw [i0]; omega
  | ⟨1, _⟩ => show win3_3.index t (1 : Fin 2) * 40 + 1 * b.val = b.val; rw [i1]; omega

/-- What point `t` writes back is block `t` of `G`: entry `(a, b)` of the block lies at row `400 t + a` of the array. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 V c).after 4 t) = _
  rw [after3_4]
  unfold out3_4
  rw [View.canon_unit_zero zero_offsets]
  simp only [View.ld_unit_zero (S := S400x10000) zero_offsets, View.ld_unit_zero (S := S10000x64) zero_offsets,
    View.ld_unit_zero (S := S1x64) zero_offsets, View.ld_unit_zero (S := S64x40) zero_offsets]
  funext y
  obtain ⟨a, b, rfl⟩ : ∃ (a : Fin 400) (b : Fin 40), y = ix2 a b := ⟨y 0, y 1, eq_ix2 y⟩
  have ht : t.val < 25 := t.isLt
  have ha : a.val < 400 := a.isLt
  have hr : t.val * 400 + a.val < 10000 := by omega
  obtain ⟨-, -, -, -, -, -, -, -, i0, i1⟩ := index_facts t
  have hemb : ((cfg3.win 4).blk t).view.emb (ix2 a b) = ix2 (⟨t.val * 400 + a.val, hr⟩ : Fin 10000) b := by
    funext ax
    apply Fin.ext
    match ax with
    | ⟨0, _⟩ => show win3_4.index t (0 : Fin 2) * 400 + 1 * a.val = t.val * 400 + a.val; rw [i0]; omega
    | ⟨1, _⟩ => show win3_4.index t (1 : Fin 2) * 40 + 1 * b.val = b.val; rw [i1]; omega
  have hcut : (win3 4).xinj (grid3.coords t) (ix2 a b) = ix2 a b := by
    funext ax
    match ax with
    | ⟨0, _⟩ => rfl
    | ⟨1, _⟩ => rfl
  show k3_pay1 (F := Ideal) (iblk3 V c 0 t) (iblk3 V c 1 t) (iblk3 V c 2 t) (iblk3 V c 3 t) ((win3 4).xinj (grid3.coords t) (ix2 a b))
    = G V c (((cfg3.win 4).blk t).view.emb (ix2 a b))
  rw [hemb, hcut]
  exact entry_eq (V c main_v2_1) (V c main_v4) (V c main_v5) (V c main_arg8)
    (iblk3 V c 0 t) (iblk3 V c 1 t) (iblk3 V c 2 t) (iblk3 V c 3 t) a b ⟨t.val * 400 + a.val, hr⟩
    (fun j => adj_block_apply V c t a j ⟨t.val * 400 + a.val, hr⟩ rfl)
    (fun j k => support_block_apply V c t j k)
    (fun k => bias_block_apply V c t k)
    (fun k b => weight_block_apply V c t k b)

/-- An index of the array is in point `t`'s block iff each coordinate is in the block's range on its axis. -/
theorem mem_blk (t : Fin cfg3.N) (i : S10000x40.Idx) :
    i ∈ ((cfg3.win 4).blk t).view.set ↔ ∀ a : Fin 2, win3_4.index t a * S400x40.size a ≤ (i a).val ∧ (i a).val < win3_4.index t a * S400x40.size a + S400x40.size a := by
  show i ∈ ((View.whole main_v6).slice (win3_4.rect t)).set ↔ _
  rw [View.set_slice_whole, Rect.mem_set_unit]
  exact Iff.rfl

/-- Every row of the array lies in the block of the point `row / 400`. -/
theorem cover (i : S10000x40.Idx) : ∃ t : Fin cfg3.N, (cfg3.win 4).flush t = true ∧ i ∈ ((cfg3.win 4).blk t).view.set := by
  have hi0 : (i 0).val < 10000 := (i 0).isLt
  have hi1 : (i 1).val < 40 := (i 1).isLt
  have hq : (i 0).val / 400 < 25 := by omega
  refine ⟨⟨(i 0).val / 400, hq⟩, flush3_4 _, ?_⟩
  rw [mem_blk]
  obtain ⟨-, -, -, -, -, -, -, -, i0, i1⟩ := index_facts ⟨(i 0).val / 400, hq⟩
  intro a
  match a with
  | ⟨0, _⟩ =>
    show win3_4.index ⟨(i 0).val / 400, hq⟩ (0 : Fin 2) * 400 ≤ (i 0).val ∧ (i 0).val < win3_4.index ⟨(i 0).val / 400, hq⟩ (0 : Fin 2) * 400 + 400
    rw [i0]
    show (i 0).val / 400 * 400 ≤ (i 0).val ∧ (i 0).val < (i 0).val / 400 * 400 + 400
    omega
  | ⟨1, _⟩ =>
    show win3_4.index ⟨(i 0).val / 400, hq⟩ (1 : Fin 2) * 40 ≤ (i 1).val ∧ (i 1).val < win3_4.index ⟨(i 0).val / 400, hq⟩ (1 : Fin 2) * 40 + 40
    rw [i1]
    omega

/-- The array the region writes ends holding the next layer's support: every block written is a block of `G`, and
    the blocks cover the array. -/
theorem final4 (c : Dev nD) : (dat3 (F := Ideal) V c).arrAt 4 cfg3.N
    = unc (sweep (cur (V c main_v2_1)) (cur (V c main_v4)) (fun b : Fin 64 => V c main_v5 (ix2 (0 : Fin 1) b)) (cur (V c main_arg8))) :=
  (dat3 (F := Ideal) V c).arrAt_eq_of_cover 4 (G V c) (fun t _ => flushed_eq V c t) cover

end Cert.Gcn.Region3

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.LibIdealLits.lean ====
import Idealize.ShloMosaic.PureOps.Ideal
import Idealize.ShloMosaic.PureOps.Ideal.Laws

/-!
# Three float literals at the ideal instance

The binary32 patterns of 1, of 16 and of minus infinity denote the extended reals 1, 16 and ⊥.
-/

namespace Cert.StepLaw

open Idealize.ShloMosaic

/-- The binary32 pattern of 1.0 denotes the real number 1. -/
theorem ofBits_one_f32 : Ideal.ofBits .f32 0x3F800000#32 = ((1 : ℝ) : EReal) := by
  simp [Ideal.ofBits, Ideal.ieee]
  norm_num
  rw [← EReal.coe_mul, ← EReal.coe_one]
  congr 1
  norm_num

/-- The binary32 pattern of 16.0 denotes the real number 16. -/
theorem ofBits_sixteen_f32 : Ideal.ofBits .f32 0x41800000#32 = ((16 : ℝ) : EReal) := by
  simp [Ideal.ofBits, Ideal.ieee]
  norm_num
  rw [← EReal.coe_mul]
  congr 1
  norm_num

/-- The binary32 pattern of minus infinity denotes ⊥. -/
theorem ofBits_neginf_f32 : Ideal.ofBits .f32 0xFF800000#32 = (⊥ : EReal) := by
  simp [Ideal.ofBits, Ideal.ieee]

end Cert.StepLaw
-- ==== Proof.Region4.lean ====
/-
  The last sweep: the output array after the fifth kernel call is the row-wise log-softmax of `adj · S + b`.

  At grid point `t` the body reads rows `400 t … 400 t + 399` of the adjacency, the whole support `S` and the bias row
  `b`, forms `x = adj_block · S + b`, and stores `x - max - log (∑ exp (x - max))` row by row, the maximum taken from `⊥`
  and the sum over the row's forty entries. A row's maximum and sum depend on that row of `x` only, and row `a` of the
  block is row `400 t + a` of `adj · S + b`; so the block written back at `t` is block `t` of the log-softmax of the whole
  pre-activation. The twenty-five blocks tile the output array (row `r` lies in block `r / 400`), hence the array ends
  holding that log-softmax.
-/
import proofs.«181754_g55353538511391_cont_9to1_m_1406_6_alg».proof.Defs
import proofs.«181754_g55353538511391_cont_9to1_m_1406_6_alg».proof.Proof.Gen.KernelIdeal.Frame
import proofs.«181754_g55353538511391_cont_9to1_m_1406_6_alg».proof.Proof.Spec
import proofs.«181754_g55353538511391_cont_9to1_m_1406_6_alg».proof.Proof.LibMatmulIx
import proofs.«181754_g55353538511391_cont_9to1_m_1406_6_alg».proof.Proof.LibKeepdims
import proofs.«181754_g55353538511391_cont_9to1_m_1406_6_alg».proof.Proof.LibIdealLits
import Idealize.ShloMosaic.Lib.ValueIdx
import Idealize.ShloMosaic.Lib.ValueLayout
import Idealize.ShloMosaic.Lib.Pipeline.Value

noncomputable section

open scoped BigOperators

namespace Cert.Gcn.Region4

open Idealize.ShloMosaic Idealize.ShloMosaic.TcCoe Idealize.ShloMosaic.ValueIdx Idealize.SL.Sem Cert.KernelIdeal Cert.KernelIdeal.Gen Cert.Gcn

/-! ## The body's arithmetic at an index -/

/-- The pre-activation the body computes from its three blocks: the block of adjacency rows times the whole support,
    plus the bias row. -/
def pre (v0 : FVec Ideal S400x10000 .bf16) (v3 : FVec Ideal S10000x40 .f32) (v6 : FVec Ideal S1x40 .f32) : FVec Ideal S400x40 .f32 :=
  addf (matmul dot_S400x10000_S10000x40_S400x40_1_0_0_1_n_n none
      (extf .f32 (shapeCast S400x10000 v0 shapeCasts_S400x10000_S400x10000) bitsLt_bf16_f32)
      (shapeCast S10000x40 v3 shapeCasts_S10000x40_S10000x40) (constant S400x40 .f32 0x00000000#32))
    (broadcastTo S400x40 (shapeCast S1x40 v6 shapeCasts_S1x40_S1x40) broadcasts_S1x40_S400x40)

/-- The row maxima of a block as a column, broadcast back along the rows. -/
def rowMaxB (x : FVec Ideal S400x40 .f32) : FVec Ideal S400x40 .f32 :=
  broadcastTo S400x40 (shapeCast S400x1 (multiReduction .maximumf [1] S400 x 0xFF800000#32 reduces_S400x40_S400 (.inl rfl) rfl)
    shapeCasts_S400_S400x1) broadcasts_S400x1_S400x40

/-- What the body does to the pre-activation: subtract the row maximum, then the logarithm of the row's sum of
    exponentials. -/
def tail (x : FVec Ideal S400x40 .f32) : FVec Ideal S400x40 .f32 :=
  subf (subf x (rowMaxB x))
    (broadcastTo S400x40 (log (shapeCast S400x1
      (multiReduction .add [1] S400 (exp (subf x (rowMaxB x))) 0x00000000#32 reduces_S400x40_S400 (.inl rfl) rfl)
      shapeCasts_S400_S400x1)) broadcasts_S400x1_S400x40)

/-- The body's payload is the tail applied to the pre-activation: the printed sequence, regrouped. -/
theorem pay_eq (v0 : Vec Ideal S400x10000 .bf16) (v3 : Vec Ideal S10000x40 .f32) (v6 : Vec Ideal S1x40 .f32) :
    k4_pay1 (F := Ideal) v0 v3 v6 = tail (pre v0 v3 v6) := rfl

/-- The pre-activation at an entry: the sum over the adjacency row times the support's column, plus the bias. -/
theorem pre_apply (v0 : FVec Ideal S400x10000 .bf16) (v3 : FVec Ideal S10000x40 .f32) (v6 : FVec Ideal S1x40 .f32)
    (a : Fin 400) (b : Fin 40) :
    pre v0 v3 v6 (ix2 a b) = (∑ k : Fin 10000, v0 (ix2 a k) * v3 (ix2 k b)) + v6 (ix2 (0 : Fin 1) b) := by
  unfold pre
  refine (addf_apply _ _ _).trans ?_
  refine congrArg₂ (· + ·) ?_ ?_
  · refine (Cert.LibMatmulIx.matmul_zero_apply dot_S400x10000_S10000x40_S400x40_1_0_0_1_n_n_wf none _ _ a b).trans ?_
    refine Finset.sum_congr rfl fun k _ => ?_
    refine congrArg₂ (· * ·) ?_ ?_
    · exact congrFun (shapeCast_self v0 shapeCasts_S400x10000_S400x10000) (ix2 a k)
    · exact congrFun (shapeCast_self v3 shapeCasts_S10000x40_S10000x40) (ix2 k b)
  · refine (broadcastTo_1b_ab_apply _ broadcasts_S1x40_S400x40 a b).trans ?_
    exact congrFun (shapeCast_self v6 shapeCasts_S1x40_S1x40) (ix2 (0 : Fin 1) b)

/-- The broadcast column of row maxima at an entry: the row's maximum from `⊥`. -/
theorem rowMaxB_apply (x : FVec Ideal S400x40 .f32) (a : Fin 400) (b : Fin 40) :
    rowMaxB x (ix2 a b) = rowMax (cur x) a := by
  unfold rowMaxB
  refine (Cert.LibKeepdims.broadcastTo_a1_ab_apply _ broadcasts_S400x1_S400x40 a b).trans ?_
  refine (Cert.LibKeepdims.shapeCast_a_a1_apply _ shapeCasts_S400_S400x1 a (0 : Fin 1)).trans ?_
  refine (Cert.LibKeepdims.multiReduction_maximumf_axis1 x _ _ _ _ a).trans ?_
  unfold rowMax
  rw [Cert.StepLaw.ofBits_neginf_f32]

/-- The tail at an entry is the log-softmax of the block's rows. -/
theorem tail_apply (x : FVec Ideal S400x40 .f32) (a : Fin 400) (b : Fin 40) :
    tail x (ix2 a b) = logSoftmax (cur x) a b := by
  unfold tail logSoftmax
  refine (subf_apply _ _ _).trans ?_
  refine congrArg₂ (· - ·) ?_ ?_
  · refine (subf_apply _ _ _).trans ?_
    exact congrArg (fun m => x (ix2 a b) - m) (rowMaxB_apply x a b)
  · refine (Cert.LibKeepdims.broadcastTo_a1_ab_apply _ broadcasts_S400x1_S400x40 a b).trans ?_
    show Ideal.log (shapeCast S400x1 _ shapeCasts_S400_S400x1 (ix2 a (0 : Fin 1))) = _
    refine congrArg Ideal.log ?_
    refine (Cert.LibKeepdims.shapeCast_a_a1_apply _ shapeCasts_S400_S400x1 a (0 : Fin 1)).trans ?_
    refine (Cert.LibKeepdims.multiReduction_add_axis1 _ _ _ _ _ a).trans ?_
    refine Finset.sum_congr rfl fun k _ => ?_
    show Ideal.exp (x (ix2 a k) - rowMaxB x (ix2 a k)) = _
    exact congrArg (fun m => Ideal.exp (x (ix2 a k) - m)) (rowMaxB_apply x a k)

/-! ## The log-softmax of a row depends on that row only -/

/-- Two matrices that agree on a row have the same log-softmax on that row. -/
theorem logSoftmax_row_congr {M M' N : ℕ} (X : Fin M → Fin N → EReal) (Y : Fin M' → Fin N → EReal) (a : Fin M) (a' : Fin M')
    (h : ∀ b, X a b = Y a' b) (b : Fin N) : logSoftmax X a b = logSoftmax Y a' b := by
  have e : X a = Y a' := funext h
  unfold logSoftmax rowMax
  rw [e]

/-- The body's payload on blocks that are rows `400 r … 400 r + 399` of the adjacency, the whole support and the whole
    bias row is those rows of the log-softmax of the layer's pre-activation. -/
theorem pay_apply (A : S10000x10000.Idx → EReal) (S : S10000x40.Idx → EReal) (B : S1x40.Idx → EReal)
    (v0 : FVec Ideal S400x10000 .bf16) (v3 : FVec Ideal S10000x40 .f32) (v6 : FVec Ideal S1x40 .f32) (r : ℕ) (hr : r < 25)
    (h0 : ∀ (a : Fin 400) (k : Fin 10000), v0 (ix2 a k) = A (ix2 (⟨400 * r + a.val, by omega⟩ : Fin 10000) k))
    (h3 : ∀ (k : Fin 10000) (b : Fin 40), v3 (ix2 k b) = S (ix2 k b))
    (h6 : ∀ b : Fin 40, v6 (ix2 (0 : Fin 1) b) = B (ix2 (0 : Fin 1) b))
    (a : Fin 400) (b : Fin 40) :
    tail (pre v0 v3 v6) (ix2 a b)
      = logSoftmax (logits (cur A) (cur S) (fun b : Fin 40 => B (ix2 (0 : Fin 1) b))) (⟨400 * r + a.val, by omega⟩ : Fin 10000) b := by
  refine (tail_apply _ a b).trans ?_
  refine logSoftmax_row_congr _ _ a _ (fun b' => ?_) b
  show pre v0 v3 v6 (ix2 a b') = _
  refine (pre_apply v0 v3 v6 a b').trans ?_
  unfold logits addRow mmf cur
  refine congrArg₂ (· + ·) (Finset.sum_congr rfl fun k _ => ?_) (h6 b')
  exact congrArg₂ (· * ·) (h0 a k) (h3 k b')

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the grid: at point `t` the adjacency and the output are at block row `t`, the support and
    the bias are whole. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The adjacency block at point `t` is rows `400 t … 400 t + 399` of the adjacency. -/
theorem adjBlk_apply (c : Dev nD) (t : Fin cfg4.N) (x : S400x10000.Idx) (k : S10000x10000.Idx)
    (hk0 : (k 0).val = 400 * t.val + (x 0).val) (hk1 : (k 1).val = (x 1).val) :
    (iblk4 (F := Ideal) V c 0 t : Vec Ideal S400x10000 .bf16) x = (V c main_v2_1 : S10000x10000.Idx → EReal) k := by
  obtain ⟨e0, e1, -⟩ := idx_facts t
  unfold iblk4
  rw [View.read_apply]
  show V c main_v2_1 _ = V c main_v2_1 _
  refine congrArg _ (funext fun a => Fin.ext ?_)
  match a with
  | ⟨0, _⟩ => show win4_0.index t (0 : Fin 2) * 400 + 1 * (x 0).val = (k 0).val; omega
  | ⟨1, _⟩ => show win4_0.index t (1 : Fin 2) * 10000 + 1 * (x 1).val = (k 1).val; omega

/-- The support block at every point is the whole support. -/
theorem supBlk_apply (c : Dev nD) (t : Fin cfg4.N) (x : S10000x40.Idx) :
    (iblk4 (F := Ideal) V c 1 t : Vec Ideal S10000x40 .f32) x = (V c main_v6 : S10000x40.Idx → EReal) x := by
  obtain ⟨-, -, e2, e3, -⟩ := idx_facts t
  unfold iblk4
  rw [View.read_apply]
  show V c main_v6 _ = V c main_v6 _
  refine congrArg _ (funext fun a => Fin.ext ?_)
  match a with
  | ⟨0, _⟩ => show win4_1.index t (0 : Fin 2) * 10000 + 1 * (x 0).val = (x 0).val; omega
  | ⟨1, _⟩ => show win4_1.index t (1 : Fin 2) * 40 + 1 * (x 1).val = (x 1).val; omega

/-- The bias block at every point is the whole bias row. -/
theorem biasBlk_apply (c : Dev nD) (t : Fin cfg4.N) (x : S1x40.Idx) :
    (iblk4 (F := Ideal) V c 2 t : Vec Ideal S1x40 .f32) x = (V c main_v7 : S1x40.Idx → EReal) x := by
  obtain ⟨-, -, -, -, e4, e5, -⟩ := idx_facts t
  unfold iblk4
  rw [View.read_apply]
  show V c main_v7 _ = V c main_v7 _
  refine congrArg _ (funext fun a => Fin.ext ?_)
  match a with
  | ⟨0, _⟩ => show win4_2.index t (0 : Fin 2) * 1 + 1 * (x 0).val = (x 0).val; omega
  | ⟨1, _⟩ => show win4_2.index t (1 : Fin 2) * 40 + 1 * (x 1).val = (x 1).val; omega

end Blocks

section Array

variable (V : (c : Dev nD) → (b : Ref sig .tc) → Buf (Elt Ideal) ((c : Thread nD τ).loc b))

/-- The output block at point `t` sits at rows `400 t … 400 t + 399` of the output array. -/
theorem outEmb (t : Fin cfg4.N) (a : Fin 400) (b : Fin 40) (h : 400 * t.val + a.val < 10000) :
    (((cfg4.win 3).blk t).view.emb (ix2 a b) : S10000x40.Idx) = ix2 (⟨400 * t.val + a.val, h⟩ : Fin 10000) b := by
  obtain ⟨-, -, -, -, -, -, e6, e7⟩ := idx_facts t
  refine funext fun ax => Fin.ext ?_
  match ax with
  | ⟨0, _⟩ => show win4_3.index t (0 : Fin 2) * 400 + 1 * a.val = 400 * t.val + a.val; omega
  | ⟨1, _⟩ => show win4_3.index t (1 : Fin 2) * 40 + 1 * b.val = b.val; omega

/-- What point `t` writes back is block `t` of the log-softmax of the layer's pre-activation. -/
theorem flushed_eq (c : Dev nD) (t : Fin cfg4.N) :
    (dat4 (F := Ideal) V c).flushed 3 t = ((cfg4.win 3).blk t).view.read (Elt Ideal)
      (unc (logSoftmax (logits (cur (V c main_v2_1)) (cur (V c main_v6)) (fun b : Fin 40 => V c main_v7 (ix2 (0 : Fin 1) b))))) := by
  show (cfg4.win 3).cut (grid4.coords t) ((dat4 V c).after 3 t) = _
  rw [after4_3]
  unfold out4_3
  rw [View.canon_unit_zero hz]
  simp only [View.ld_unit_zero (S := S400x10000) hz, View.ld_unit_zero (S := S10000x40) hz, View.ld_unit_zero (S := S1x40) hz]
  rw [pay_eq]
  have ht : t.val < 25 := Nat.lt_of_lt_of_eq t.isLt N_4
  refine funext fun (j : S400x40.Idx) => ?_
  obtain ⟨a, b, rfl⟩ : ∃ (a : Fin 400) (b : Fin 40), j = ix2 a b := ⟨j 0, j 1, eq_ix2 j⟩
  have hrow : 400 * t.val + a.val < 10000 := by omega
  show tail (pre (iblk4 V c 0 t) (iblk4 V c 1 t) (iblk4 V c 2 t)) (ix2 a b)
    = unc (logSoftmax (logits (cur (V c main_v2_1)) (cur (V c main_v6)) (fun b : Fin 40 => V c main_v7 (ix2 (0 : Fin 1) b))))
        (((cfg4.win 3).blk t).view.emb (ix2 a b))
  refine Eq.trans ?_ (congrArg _ (outEmb t a b hrow).symm)
  exact pay_apply (V c main_v2_1) (V c main_v6) (V c main_v7) (iblk4 V c 0 t) (iblk4 V c 1 t) (iblk4 V c 2 t) t.val ht
    (fun a k => adjBlk_apply V c t (ix2 a k) (ix2 (⟨400 * t.val + a.val, by omega⟩ : Fin 10000) k) rfl rfl)
    (fun k b => supBlk_apply V c t (ix2 k b))
    (fun b => biasBlk_apply V c t (ix2 (0 : Fin 1) b)) a b

/-- An index of the output array is in point `t`'s block iff each coordinate is in the block's range on its axis. -/
theorem mem_blk (t : Fin cfg4.N) (i : S10000x40.Idx) :
    i ∈ ((cfg4.win 3).blk t).view.set ↔ ∀ a : Fin 2, win4_3.index t a * S400x40.size a ≤ (i a).val ∧ (i a).val < win4_3.index t a * S400x40.size a + S400x40.size a := by
  show i ∈ ((View.whole main_v8).slice (win4_3.rect t)).set ↔ _
  rw [View.set_slice_whole, Rect.mem_set_unit]
  exact Iff.rfl

/-- Every row `r` of the output array is in the block of point `r / 400`, which writes back. -/
theorem cover (i : S10000x40.Idx) : ∃ t : Fin cfg4.N, (cfg4.win 3).flush t = true ∧ i ∈ ((cfg4.win 3).blk t).view.set := by
  have hi0 : (i 0).val < 10000 := (i 0).isLt
  have hi1 : (i 1).val < 40 := (i 1).isLt
  have hN : cfg4.N = 25 := N_4
  have hq : (i 0).val / 400 < cfg4.N := by rw [hN]; omega
  obtain ⟨-, -, -, -, -, -, e6, e7⟩ := idx_facts ⟨(i 0).val / 400, hq⟩
  refine ⟨⟨(i 0).val / 400, hq⟩, flush4_3 _, ?_⟩
  rw [mem_blk]
  intro a
  match a with
  | ⟨0, _⟩ =>
    show win4_3.index ⟨(i 0).val / 400, hq⟩ (0 : Fin 2) * 400 ≤ (i 0).val ∧ (i 0).val < win4_3.index ⟨(i 0).val / 400, hq⟩ (0 : Fin 2) * 400 + 400
    rw [e6]; show (i 0).val / 400 * 400 ≤ (i 0).val ∧ (i 0).val < (i 0).val / 400 * 400 + 400; omega
  | ⟨1, _⟩ =>
    show win4_3.index ⟨(i 0).val / 400, hq⟩ (1 : Fin 2) * 40 ≤ (i 1).val ∧ (i 1).val < win4_3.index ⟨(i 0).val / 400, hq⟩ (1 : Fin 2) * 40 + 40
    rw [e7]; omega

/-- The output array after the last sweep: the log-softmax of `adj · S + b`, row by row. -/
theorem final3 (c : Dev nD) : (dat4 (F := Ideal) V c).arrAt 3 cfg4.N
    = unc (logSoftmax (logits (cur (V c main_v2_1)) (cur (V c main_v6)) (fun b : Fin 40 => V c main_v7 (ix2 (0 : Fin 1) b)))) :=
  (dat4 (F := Ideal) V c).arrAt_eq_of_cover 3 _ (fun t _ => flushed_eq V c t) cover

end Array

end Cert.Gcn.Region4

end
-- ==== Proof.KernelValue.lean ====
/-
  The kernel's result buffer as the network of its inputs.

  The kernel runs five sweeps, each leaving an array that the next one reads, with a reshape of a bias vector to a row
  between them. Followed back from the last boundary to the launch, every array a sweep reads is either an input as
  launched (no sweep and no reshape writes an input), a reshaped bias, or the array an earlier sweep left; the bf16
  copy of the adjacency that the first sweep writes is the adjacency itself over the extended reals. Composing the five
  sweeps' values gives the network of the specification.
-/
import proofs.«181754_g55353538511391_cont_9to1_m_1406_6_alg».proof.Defs
import proofs.«181754_g55353538511391_cont_9to1_m_1406_6_alg».proof.Proof.Gen.KernelIdeal.Frame
import proofs.«181754_g55353538511391_cont_9to1_m_1406_6_alg».proof.Proof.Spec
import proofs.«181754_g55353538511391_cont_9to1_m_1406_6_alg».proof.Proof.Region01
import proofs.«181754_g55353538511391_cont_9to1_m_1406_6_alg».proof.Proof.Region23
import proofs.«181754_g55353538511391_cont_9to1_m_1406_6_alg».proof.Proof.Region4
import Idealize.ShloMosaic.Lib.StableHlo.Run
import Idealize.ShloMosaic.Lib.Pipeline.Value
import Idealize.ShloMosaic.Lib.ValueIdx
import Idealize.ShloMosaic.Lib.ValueLayout

noncomputable section

namespace Cert.Gcn.KernelSide

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg) (c : Dev nD)

/-! ## The reshapes between the sweeps -/

/-- The host stretch 1 (one reshape, into `main_v1`) leaves every other buffer as it was. -/
theorem host1_keep (b : Ref sig .tc) (hb : b ≠ main_v1) :
    W2 m ρ c (Proc.devRef .tc b) = W1 m ρ c (Proc.devRef .tc b) :=
  after_of_forall_not_mem (b := Proc.devRef .tc b) _ _ (fun op hop => by
    rw [List.mem_singleton.mp hop, reshape_writes, Finset.mem_singleton]
    exact devRef_ne_of_ne hb)

/-- The host stretch 2 (one reshape, into `main_v3`) leaves every other buffer as it was. -/
theorem host2_keep (b : Ref sig .tc) (hb : b ≠ main_v3) :
    W4 m ρ c (Proc.devRef .tc b) = W3 m ρ c (Proc.devRef .tc b) :=
  after_of_forall_not_mem (b := Proc.devRef .tc b) _ _ (fun op hop => by
    rw [List.mem_singleton.mp hop, reshape_writes, Finset.mem_singleton]
    exact devRef_ne_of_ne hb)

/-- The host stretch 3 (one reshape, into `main_v5`) leaves every other buffer as it was. -/
theorem host3_keep (b : Ref sig .tc) (hb : b ≠ main_v5) :
    W6 m ρ c (Proc.devRef .tc b) = W5 m ρ c (Proc.devRef .tc b) :=
  after_of_forall_not_mem (b := Proc.devRef .tc b) _ _ (fun op hop => by
    rw [List.mem_singleton.mp hop, reshape_writes, Finset.mem_singleton]
    exact devRef_ne_of_ne hb)

/-- The host stretch 4 (one reshape, into `main_v7`) leaves every other buffer as it was. -/
theorem host4_keep (b : Ref sig .tc) (hb : b ≠ main_v7) :
    W8 m ρ c (Proc.devRef .tc b) = W7 m ρ c (Proc.devRef .tc b) :=
  after_of_forall_not_mem (b := Proc.devRef .tc b) _ _ (fun op hop => by
    rw [List.mem_singleton.mp hop, reshape_writes, Finset.mem_singleton]
    exact devRef_ne_of_ne hb)

/-- The reshaped bias row `main_v1` read at `(0, b)` is the bias vector `main_arg3` at `b`. -/
theorem host1_bias (b : Fin 64) :
    (W2 m ρ c (Proc.devRef .tc main_v1) : S1x64.Idx → EReal) (ix2 (0 : Fin 1) b)
      = (W1 m ρ c (Proc.devRef .tc main_arg3) : S64.Idx → EReal) (ix1 b) := by
  show after hostOps1 (W1 m ρ c) (Proc.devRef .tc main_v1) (ix2 (0 : Fin 1) b) = _
  after_results
  exact shapeCast_a_1a_apply _ _ (0 : Fin 1) b

/-- The reshaped bias row `main_v3` read at `(0, b)` is the bias vector `main_arg5` at `b`. -/
theorem host2_bias (b : Fin 64) :
    (W4 m ρ c (Proc.devRef .tc main_v3) : S1x64.Idx → EReal) (ix2 (0 : Fin 1) b)
      = (W3 m ρ c (Proc.devRef .tc main_arg5) : S64.Idx → EReal) (ix1 b) := by
  show after hostOps2 (W3 m ρ c) (Proc.devRef .tc main_v3) (ix2 (0 : Fin 1) b) = _
  after_results
  exact shapeCast_a_1a_apply _ _ (0 : Fin 1) b

/-- The reshaped bias row `main_v5` read at `(0, b)` is the bias vector `main_arg7` at `b`. -/
theorem host3_bias (b : Fin 64) :
    (W6 m ρ c (Proc.devRef .tc main_v5) : S1x64.Idx → EReal) (ix2 (0 : Fin 1) b)
      = (W5 m ρ c (Proc.devRef .tc main_arg7) : S64.Idx → EReal) (ix1 b) := by
  show after hostOps3 (W5 m ρ c) (Proc.devRef .tc main_v5) (ix2 (0 : Fin 1) b) = _
  after_results
  exact shapeCast_a_1a_apply _ _ (0 : Fin 1) b

/-- The reshaped bias row `main_v7` read at `(0, b)` is the bias vector `main_arg9` at `b`. -/
theorem host4_bias (b : Fin 40) :
    (W8 m ρ c (Proc.devRef .tc main_v7) : S1x40.Idx → EReal) (ix2 (0 : Fin 1) b)
      = (W7 m ρ c (Proc.devRef .tc main_arg9) : S40.Idx → EReal) (ix1 b) := by
  show after hostOps4 (W7 m ρ c) (Proc.devRef .tc main_v7) (ix2 (0 : Fin 1) b) = _
  after_results
  exact shapeCast_a_1a_apply _ _ (0 : Fin 1) b

/-! ## The inputs at the boundary where a sweep or a reshape reads them -/

theorem W2_main_arg1 : W2 m ρ c (Proc.devRef .tc main_arg1) = m ((c : Thread nD τ).loc main_arg1) :=
  calc W2 m ρ c (Proc.devRef .tc main_arg1)
    _ = W1 m ρ c (Proc.devRef .tc main_arg1) := host1_keep m ρ c main_arg1 (by decide)
    _ = W0 m ρ c (Proc.devRef .tc main_arg1) := W1_of_ne m ρ c main_arg1 (by decide)
    _ = m ((c : Thread nD τ).loc main_arg1) := rfl

theorem W2_main_arg4 : W2 m ρ c (Proc.devRef .tc main_arg4) = m ((c : Thread nD τ).loc main_arg4) :=
  calc W2 m ρ c (Proc.devRef .tc main_arg4)
    _ = W1 m ρ c (Proc.devRef .tc main_arg4) := host1_keep m ρ c main_arg4 (by decide)
    _ = W0 m ρ c (Proc.devRef .tc main_arg4) := W1_of_ne m ρ c main_arg4 (by decide)
    _ = m ((c : Thread nD τ).loc main_arg4) := rfl

theorem W1_main_arg3 : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

theorem W3_main_arg5 : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := host1_keep m ρ c main_arg5 (by decide)
    _ = W0 m ρ c (Proc.devRef .tc main_arg5) := W1_of_ne m ρ c main_arg5 (by decide)
    _ = m ((c : Thread nD τ).loc main_arg5) := rfl

theorem W4_main_arg6 : W4 m ρ c (Proc.devRef .tc main_arg6) = m ((c : Thread nD τ).loc main_arg6) :=
  calc W4 m ρ c (Proc.devRef .tc main_arg6)
    _ = W3 m ρ c (Proc.devRef .tc main_arg6) := host2_keep m ρ c main_arg6 (by decide)
    _ = W2 m ρ c (Proc.devRef .tc main_arg6) := W3_of_ne m ρ c main_arg6 (by decide)
    _ = W1 m ρ c (Proc.devRef .tc main_arg6) := host1_keep m ρ c main_arg6 (by decide)
    _ = W0 m ρ c (Proc.devRef .tc main_arg6) := W1_of_ne m ρ c main_arg6 (by decide)
    _ = m ((c : Thread nD τ).loc main_arg6) := rfl

theorem W5_main_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := host2_keep m ρ c main_arg7 (by decide)
    _ = W2 m ρ c (Proc.devRef .tc main_arg7) := W3_of_ne m ρ c main_arg7 (by decide)
    _ = W1 m ρ c (Proc.devRef .tc main_arg7) := host1_keep m ρ c main_arg7 (by decide)
    _ = W0 m ρ c (Proc.devRef .tc main_arg7) := W1_of_ne m ρ c main_arg7 (by decide)
    _ = m ((c : Thread nD τ).loc main_arg7) := rfl

theorem W6_main_arg8 : W6 m ρ c (Proc.devRef .tc main_arg8) = m ((c : Thread nD τ).loc main_arg8) :=
  calc W6 m ρ c (Proc.devRef .tc main_arg8)
    _ = W5 m ρ c (Proc.devRef .tc main_arg8) := host3_keep m ρ c main_arg8 (by decide)
    _ = W4 m ρ c (Proc.devRef .tc main_arg8) := W5_of_ne m ρ c main_arg8 (by decide)
    _ = W3 m ρ c (Proc.devRef .tc main_arg8) := host2_keep m ρ c main_arg8 (by decide)
    _ = W2 m ρ c (Proc.devRef .tc main_arg8) := W3_of_ne m ρ c main_arg8 (by decide)
    _ = W1 m ρ c (Proc.devRef .tc main_arg8) := host1_keep m ρ c main_arg8 (by decide)
    _ = W0 m ρ c (Proc.devRef .tc main_arg8) := W1_of_ne m ρ c main_arg8 (by decide)
    _ = m ((c : Thread nD τ).loc main_arg8) := rfl

theorem W7_main_arg9 : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := host3_keep m ρ c main_arg9 (by decide)
    _ = W4 m ρ c (Proc.devRef .tc main_arg9) := W5_of_ne m ρ c main_arg9 (by decide)
    _ = W3 m ρ c (Proc.devRef .tc main_arg9) := host2_keep m ρ c main_arg9 (by decide)
    _ = W2 m ρ c (Proc.devRef .tc main_arg9) := W3_of_ne m ρ c main_arg9 (by decide)
    _ = W1 m ρ c (Proc.devRef .tc main_arg9) := host1_keep m ρ c main_arg9 (by decide)
    _ = W0 m ρ c (Proc.devRef .tc main_arg9) := W1_of_ne m ρ c main_arg9 (by decide)
    _ = m ((c : Thread nD τ).loc main_arg9) := rfl

/-! ## The inputs by coordinates, and the supports the sweeps leave -/

abbrev aH : Fin 10000 → Fin 128 → EReal := cur (m ((c : Thread nD τ).loc main_arg0))
abbrev aAdj : Fin 10000 → Fin 10000 → EReal := cur (m ((c : Thread nD τ).loc main_arg1))
abbrev aWin : Fin 128 → Fin 64 → EReal := cur (m ((c : Thread nD τ).loc main_arg2))
abbrev bIn : Fin 64 → EReal := cur1 (m ((c : Thread nD τ).loc main_arg3))
abbrev aW0 : Fin 64 → Fin 64 → EReal := cur (m ((c : Thread nD τ).loc main_arg4))
abbrev b0 : Fin 64 → EReal := cur1 (m ((c : Thread nD τ).loc main_arg5))
abbrev aW1 : Fin 64 → Fin 64 → EReal := cur (m ((c : Thread nD τ).loc main_arg6))
abbrev b1 : Fin 64 → EReal := cur1 (m ((c : Thread nD τ).loc main_arg7))
abbrev aWout : Fin 64 → Fin 40 → EReal := cur (m ((c : Thread nD τ).loc main_arg8))
abbrev bOut : Fin 40 → EReal := cur1 (m ((c : Thread nD τ).loc main_arg9))

/-- The support of the first layer, `h · W_in`. -/
abbrev S0 : Fin 10000 → Fin 64 → EReal := mmf (aH m c) (aWin m c)
/-- The support of the second layer. -/
abbrev S1 : Fin 10000 → Fin 64 → EReal := sweep (aAdj m c) (S0 m c) (bIn m c) (aW0 m c)
/-- The support of the third layer. -/
abbrev S2 : Fin 10000 → Fin 64 → EReal := sweep (aAdj m c) (S1 m c) (b0 m c) (aW1 m c)
/-- The support of the last layer. -/
abbrev S3 : Fin 10000 → Fin 40 → EReal := sweep (aAdj m c) (S2 m c) (b1 m c) (aWout m c)

/-! ## What each sweep leaves, at the boundary where the next one reads it -/

/-- The first call leaves `h · W_in`; the reshape after it does not touch it. -/
theorem v0_at2 : V2 m ρ c main_v0 = unc (S0 m c) :=
  (host1_keep m ρ c main_v0 (by decide)).trans ((W1_arr m ρ c 2).trans (Region0.final2 (V0 m ρ) c))

/-- The bf16 copy of the adjacency, where the second sweep reads it, is the adjacency as launched. -/
theorem v21_at4 : (V4 m ρ c main_v2_1 : S10000x10000.Idx → EReal) = m ((c : Thread nD τ).loc main_arg1) :=
  (host2_keep m ρ c main_v2_1 (by decide)).trans ((W3_arr m ρ c 5).trans ((Region1.final5 (V2 m ρ) c).trans (W2_main_arg1 m ρ c)))

/-- … and where the third sweep reads it … -/
theorem v21_at6 : (V6 m ρ c main_v2_1 : S10000x10000.Idx → EReal) = m ((c : Thread nD τ).loc main_arg1) :=
  (host3_keep m ρ c main_v2_1 (by decide)).trans (((W5_arr m ρ c 0).trans (((dat2 (V4 m ρ) c).arrAt_in 0 rfl _).trans (A_eq2 (V4 m ρ) c 0))).trans (v21_at4 m ρ c))

/-- … and where the last sweep reads it. -/
theorem v21_at8 : (V8 m ρ c main_v2_1 : S10000x10000.Idx → EReal) = m ((c : Thread nD τ).loc main_arg1) :=
  (host4_keep m ρ c main_v2_1 (by decide)).trans (((W7_arr m ρ c 0).trans (((dat3 (V6 m ρ) c).arrAt_in 0 rfl _).trans (A_eq3 (V6 m ρ) c 0))).trans (v21_at6 m ρ c))

/-- The first sweep leaves the second layer's support. -/
theorem v20_at4 : V4 m ρ c main_v2_0 = unc (S1 m c) := by
  refine (host2_keep m ρ c main_v2_0 (by decide)).trans ((W3_arr m ρ c 4).trans ((Region1.final4 (V2 m ρ) c).trans ?_))
  have e1 : V2 m ρ c main_arg1 = m ((c : Thread nD τ).loc main_arg1) := W2_main_arg1 m ρ c
  have e0 : V2 m ρ c main_v0 = unc (S0 m c) := v0_at2 m ρ c
  have e4 : V2 m ρ c main_arg4 = m ((c : Thread nD τ).loc main_arg4) := W2_main_arg4 m ρ c
  have eb : (fun b : Fin 64 => V2 m ρ c main_v1 (ix2 (0 : Fin 1) b)) = bIn m c :=
    funext fun b => (host1_bias m ρ c b).trans (congrFun (W1_main_arg3 m ρ c) (ix1 b))
  rw [e1, e0, e4, eb]

/-- The second sweep leaves the third layer's support. -/
theorem v4_at6 : V6 m ρ c main_v4 = unc (S2 m c) := by
  refine (host3_keep m ρ c main_v4 (by decide)).trans ((W5_arr m ρ c 4).trans ((Region2.final4 (V4 m ρ) c).trans ?_))
  have e1 := v21_at4 m ρ c
  have e0 : V4 m ρ c main_v2_0 = unc (S1 m c) := v20_at4 m ρ c
  have e4 : V4 m ρ c main_arg6 = m ((c : Thread nD τ).loc main_arg6) := W4_main_arg6 m ρ c
  have eb : (fun b : Fin 64 => V4 m ρ c main_v3 (ix2 (0 : Fin 1) b)) = b0 m c :=
    funext fun b => (host2_bias m ρ c b).trans (congrFun (W3_main_arg5 m ρ c) (ix1 b))
  rw [e1, e0, e4, eb]

/-- The third sweep leaves the last layer's support. -/
theorem v6_at8 : V8 m ρ c main_v6 = unc (S3 m c) := by
  refine (host4_keep m ρ c main_v6 (by decide)).trans ((W7_arr m ρ c 4).trans ((Region3.final4 (V6 m ρ) c).trans ?_))
  have e1 := v21_at6 m ρ c
  have e0 : V6 m ρ c main_v4 = unc (S2 m c) := v4_at6 m ρ c
  have e4 : V6 m ρ c main_arg8 = m ((c : Thread nD τ).loc main_arg8) := W6_main_arg8 m ρ c
  have eb : (fun b : Fin 64 => V6 m ρ c main_v5 (ix2 (0 : Fin 1) b)) = b1 m c :=
    funext fun b => (host3_bias m ρ c b).trans (congrFun (W5_main_arg7 m ρ c) (ix1 b))
  rw [e1, e0, e4, eb]

/-- THE RESULT: after the last sweep the result buffer holds the network of the inputs as launched. -/
theorem result_eq : W9 m ρ c (Proc.devRef .tc main_v8)
    = unc (net (aH m c) (aAdj m c) (aWin m c) (bIn m c) (aW0 m c) (b0 m c) (aW1 m c) (b1 m c) (aWout m c) (bOut m c)) := by
  refine (W9_arr m ρ c 3).trans ((Region4.final3 (V8 m ρ) c).trans ?_)
  have e1 := v21_at8 m ρ c
  have e0 : V8 m ρ c main_v6 = unc (S3 m c) := v6_at8 m ρ c
  have eb : (fun b : Fin 40 => V8 m ρ c main_v7 (ix2 (0 : Fin 1) b)) = bOut m c :=
    funext fun b => (host4_bias m ρ c b).trans (congrFun (W7_main_arg9 m ρ c) (ix1 b))
  rw [e1, e0, eb]
  rfl

end Cert.Gcn.KernelSide

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.RefValue.lean ====
/-
  The reference program's run, read as the specification.

  The reference computes on the host `x ← adj · (x · W) + b` four times and then the logarithm of the softmax of every row.
  Each host operation is read at an entry. A general dot product of two matrices is the sum over the contracted coordinate
  of the products of the entries. A bias vector broadcast to one row and then to every row reads, at `(a, c)`, its entry
  `c`. The reduction with a maximum body from `⊥` is the fold of `max` over the row, and the maximum of it with a `⊥`
  splat is itself; the float sum from `0` is the sum over the row; a vector made a column and broadcast along the rows
  reads, at `(a, c)`, its entry `a`; the exponential and the logarithm act entry by entry.

  These readings are stated for any extents. At the program's shapes they turn the result's composed term, from the
  innermost product outwards, into `net` of the launch contents of the ten arguments: no law of arithmetic is used. The
  run of the program (the generated module's, whose result is that composed term) then ends with the result buffer at
  `net` of the arguments and the arguments unchanged.
-/
import proofs.«181754_g55353538511391_cont_9to1_m_1406_6_alg».proof.Proof.Gen.ReferenceIdeal
import proofs.«181754_g55353538511391_cont_9to1_m_1406_6_alg».proof.Proof.RefRunP
import proofs.«181754_g55353538511391_cont_9to1_m_1406_6_alg».proof.Proof.Spec
import proofs.«181754_g55353538511391_cont_9to1_m_1406_6_alg».proof.Proof.LibHostDotIx
import proofs.«181754_g55353538511391_cont_9to1_m_1406_6_alg».proof.Proof.LibIdealLits
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Gcn.RefSide

open Idealize.ShloMosaic Idealize.ShloMosaic.ValueIdx Idealize.ShloMosaic.TcCoe Idealize.SL.Sem Cert.ReferenceIdeal Cert.Gcn

/-! ## The host's operations, read as functions of coordinates -/

/-- The host's product of two matrices is the matrix product of their coordinate functions. -/
theorem hostMm_eq {M K N : ℕ} (w : DotDims.WF ⟨2, ![M, K]⟩ ⟨2, ![K, N]⟩ ⟨2, ![M, N]⟩ [1] [0] [0] [1] [] [])
    (A : FVec Ideal ⟨2, ![M, K]⟩ .f32) (B : FVec Ideal ⟨2, ![K, N]⟩ .f32) :
    Host.dotGeneral (F := Ideal) (⟨[1], [0], [0], [1], [], [], w⟩ : DotDims _ _ _) none A B = unc (mmf (cur A) (cur B)) :=
  funext fun i => (congrArg _ (eq_ix2 i)).trans (LibHostDotIx.dotGeneral_apply w none A B (i 0) (i 1))

/-- A row vector broadcast first to one row and then to every row reads, at `(a, c)`, its entry `c`. -/
theorem biasRows_apply {n k : ℕ} (h1 : (⟨1, ![k]⟩ : Shape).BroadcastsInDim ⟨2, ![1, k]⟩ ![1])
    (h2 : (⟨2, ![1, k]⟩ : Shape).BroadcastsInDim ⟨2, ![n, k]⟩ ![0, 1])
    (b : (⟨1, ![k]⟩ : Shape).Idx → EReal) (a : Fin n) (c : Fin k) :
    broadcastInDim ⟨2, ![n, k]⟩ ![0, 1] h2 (broadcastInDim ⟨2, ![1, k]⟩ ![1] h1 b) (ix2 a c) = b (ix1 c) := by
  rw [broadcastInDim_apply ![0, 1] h2 _ (ix2 a c) (ix2 (0 : Fin 1) c) (fun ax => match ax with
        | ⟨0, _⟩ => by show (0 : ℕ) = if (1 : ℕ) = 1 then 0 else a.val; rw [if_pos rfl]
        | ⟨1, _⟩ => by
          show c.val = if k = 1 then 0 else c.val
          split
          · have := c.isLt; omega
          · rfl),
      broadcastInDim_apply ![1] h1 b (ix2 (0 : Fin 1) c) (ix1 c) (fun ax => match ax with
        | ⟨0, _⟩ => by
          show c.val = if k = 1 then 0 else c.val
          split
          · have := c.isLt; omega
          · rfl)]

/-- One layer on the host at an entry: the product with the adjacency plus the broadcast bias. -/
theorem hostLayer_apply {n k : ℕ} (w : DotDims.WF ⟨2, ![n, n]⟩ ⟨2, ![n, k]⟩ ⟨2, ![n, k]⟩ [1] [0] [0] [1] [] [])
    (h1 : (⟨1, ![k]⟩ : Shape).BroadcastsInDim ⟨2, ![1, k]⟩ ![1])
    (h2 : (⟨2, ![1, k]⟩ : Shape).BroadcastsInDim ⟨2, ![n, k]⟩ ![0, 1])
    (adj : FVec Ideal ⟨2, ![n, n]⟩ .f32) (S : FVec Ideal ⟨2, ![n, k]⟩ .f32) (b : FVec Ideal ⟨1, ![k]⟩ .f32)
    (a : Fin n) (c : Fin k) :
    addf (Host.dotGeneral (F := Ideal) (⟨[1], [0], [0], [1], [], [], w⟩ : DotDims _ _ _) none adj S)
        (broadcastInDim ⟨2, ![n, k]⟩ ![0, 1] h2 (broadcastInDim ⟨2, ![1, k]⟩ ![1] h1 b)) (ix2 a c)
      = logits (cur adj) (cur S) (cur1 b) a c := by
  rw [addf_apply, LibHostDotIx.dotGeneral_apply, biasRows_apply]
  rfl

/-- One layer on the host — the product with the adjacency plus the broadcast bias — is `logits`. -/
theorem hostLayer_eq {n k : ℕ} (w : DotDims.WF ⟨2, ![n, n]⟩ ⟨2, ![n, k]⟩ ⟨2, ![n, k]⟩ [1] [0] [0] [1] [] [])
    (h1 : (⟨1, ![k]⟩ : Shape).BroadcastsInDim ⟨2, ![1, k]⟩ ![1])
    (h2 : (⟨2, ![1, k]⟩ : Shape).BroadcastsInDim ⟨2, ![n, k]⟩ ![0, 1])
    (adj : FVec Ideal ⟨2, ![n, n]⟩ .f32) (S : FVec Ideal ⟨2, ![n, k]⟩ .f32) (b : FVec Ideal ⟨1, ![k]⟩ .f32) :
    addf (Host.dotGeneral (F := Ideal) (⟨[1], [0], [0], [1], [], [], w⟩ : DotDims _ _ _) none adj S)
        (broadcastInDim ⟨2, ![n, k]⟩ ![0, 1] h2 (broadcastInDim ⟨2, ![1, k]⟩ ![1] h1 b))
      = unc (logits (cur adj) (cur S) (cur1 b)) :=
  funext fun i => (congrArg _ (eq_ix2 i)).trans (hostLayer_apply w h1 h2 adj S b (i 0) (i 1))

/-! ## The row-wise logarithm of the softmax on the host -/

/-- The reduced index `a` with the column `k` put back is `(a, k)`. -/
theorem lift_ix2 {n l : ℕ} (h : (⟨2, ![n, l]⟩ : Shape).Reduces [1] ⟨1, ![n]⟩) (a : Fin n)
    (k : Fin ((⟨2, ![n, l]⟩ : Shape).size 1)) : h.lift (ix1 a) k = ix2 a (⟨k.val, k.isLt⟩ : Fin l) := by
  funext c; apply Fin.ext
  match c with
  | ⟨0, _⟩ => rfl
  | ⟨1, _⟩ => rfl

/-- From `⊥` the host's reduction with a maximum body over the columns, at row `a`, is the row's maximum. -/
theorem hostRowMax_apply {n l : ℕ} (X : FVec Ideal ⟨2, ![n, l]⟩ .f32) (h' : (⟨2, ![n, l]⟩ : Shape).ReducesTo [1] ⟨1, ![n]⟩)
    (h : (⟨2, ![n, l]⟩ : Shape).Reduces [1] ⟨1, ![n]⟩) (hu : 0 < (⟨0, ![]⟩ : Shape).numel) (a : Fin n) :
    Host.reduce FloatOps.maximumf X (constant (⟨0, ![]⟩ : Shape) .f32 0xFF800000#32) h' hu (ix1 a) = rowMax (cur X) a := by
  rw [Host.reduce_eq_fold_single FloatOps.maximumf X _ h' h hu]
  have hf : (X ∘ h.lift (ix1 a)) = fun k : Fin l => X (ix2 a k) := funext fun k => congrArg X (lift_ix2 h a k)
  show Finset.fold max (Ideal.ofBits .f32 0xFF800000#32) (X ∘ h.lift (ix1 a)) (Finset.univ : Finset (Fin l))
    = Finset.fold max (⊥ : EReal) (fun k : Fin l => X (ix2 a k)) (Finset.univ : Finset (Fin l))
  rw [StepLaw.ofBits_neginf_f32]
  exact congrArg (fun f => Finset.fold max (⊥ : EReal) f (Finset.univ : Finset (Fin l))) hf

/-- From `0` the host's sum over the columns, at row `a`, is the sum of the row. -/
theorem hostRowSum_apply {n l : ℕ} (Y : FVec Ideal ⟨2, ![n, l]⟩ .f32) (h' : (⟨2, ![n, l]⟩ : Shape).ReducesTo [1] ⟨1, ![n]⟩)
    (h : (⟨2, ![n, l]⟩ : Shape).Reduces [1] ⟨1, ![n]⟩) (hu : 0 < (⟨0, ![]⟩ : Shape).numel) (a : Fin n) :
    Host.reduceAdd Y (constant (⟨0, ![]⟩ : Shape) .f32 0x00000000#32) h' hu (ix1 a) = ∑ k : Fin l, Y (ix2 a k) := by
  rw [hostReduceAdd_apply, Ideal.hostReduceAdd_single h' h]
  show Ideal.ofBits .f32 0x00000000#32 + _ = _
  rw [Ideal.ofBits_zero_f32, zero_add]
  exact Finset.sum_congr rfl fun k _ => congrArg Y (lift_ix2 h a k)

/-- A column vector broadcast first to one column and then along every row reads, at `(a, c)`, its entry `a`. -/
theorem colBcast_apply {n l : ℕ} (hb1 : (⟨1, ![n]⟩ : Shape).BroadcastsInDim ⟨2, ![n, 1]⟩ ![0])
    (hb2 : (⟨2, ![n, 1]⟩ : Shape).BroadcastsInDim ⟨2, ![n, l]⟩ ![0, 1])
    (g : (⟨2, ![n, 1]⟩ : Shape).Idx → EReal) (a : Fin n) (c : Fin l) :
    broadcastInDim ⟨2, ![n, l]⟩ ![0, 1] hb2 g (ix2 a c) = g (ix2 a (0 : Fin 1)) :=
  broadcastInDim_apply ![0, 1] hb2 g (ix2 a c) (ix2 a (0 : Fin 1)) (fun ax => match ax with
    | ⟨0, _⟩ => by
      show a.val = if n = 1 then 0 else a.val
      split
      · have := a.isLt; omega
      · rfl
    | ⟨1, _⟩ => by show (0 : ℕ) = if (1 : ℕ) = 1 then 0 else c.val; rw [if_pos rfl])

/-- A vector as a column reads, at `(a, u)`, its entry `a`. -/
theorem col_apply {n : ℕ} (hb1 : (⟨1, ![n]⟩ : Shape).BroadcastsInDim ⟨2, ![n, 1]⟩ ![0])
    (v : (⟨1, ![n]⟩ : Shape).Idx → EReal) (a : Fin n) (u : Fin 1) :
    broadcastInDim ⟨2, ![n, 1]⟩ ![0] hb1 v (ix2 a u) = v (ix1 a) :=
  broadcastInDim_apply ![0] hb1 v (ix2 a u) (ix1 a) (fun ax => match ax with
    | ⟨0, _⟩ => by
      show a.val = if n = 1 then 0 else a.val
      split
      · have := a.isLt; omega
      · rfl)

/-- The maximum with `⊥` on the left changes nothing. -/
theorem max_neginf_left (x : EReal) : max (Ideal.ofBits .f32 0xFF800000#32) x = x := by
  rw [StepLaw.ofBits_neginf_f32]; exact max_eq_right bot_le

/-- The host's exponential and logarithm act entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The rows' maxima as the host spreads them over the matrix: the maximum of a `⊥` splat and the reduction, as a column,
    along every row. -/
abbrev hostShift {n l : ℕ} (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, l]⟩ ![0, 1])
    (h' : (⟨2, ![n, l]⟩ : Shape).ReducesTo [1] ⟨1, ![n]⟩) (hu : 0 < (⟨0, ![]⟩ : Shape).numel)
    (X : FVec Ideal ⟨2, ![n, l]⟩ .f32) : FVec Ideal ⟨2, ![n, l]⟩ .f32 :=
  broadcastInDim ⟨2, ![n, l]⟩ ![0, 1] hb2 (broadcastInDim ⟨2, ![n, 1]⟩ ![0] hb1
    (maximumf (broadcastInDim ⟨1, ![n]⟩ ![] hb0 (constant (⟨0, ![]⟩ : Shape) .f32 0xFF800000#32))
      (Host.reduce FloatOps.maximumf X (constant (⟨0, ![]⟩ : Shape) .f32 0xFF800000#32) h' hu)))

/-- At `(a, c)` it is the maximum of row `a`. -/
theorem hostShift_apply {n l : ℕ} (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, l]⟩ ![0, 1])
    (h' : (⟨2, ![n, l]⟩ : Shape).ReducesTo [1] ⟨1, ![n]⟩) (h : (⟨2, ![n, l]⟩ : Shape).Reduces [1] ⟨1, ![n]⟩)
    (hu : 0 < (⟨0, ![]⟩ : Shape).numel) (X : FVec Ideal ⟨2, ![n, l]⟩ .f32) (a : Fin n) (c : Fin l) :
    hostShift hb0 hb1 hb2 h' hu X (ix2 a c) = rowMax (cur X) a := by
  rw [hostShift, colBcast_apply hb1 hb2, col_apply hb1, maximumf_apply, broadcastInDim_scalar_apply, constant_apply,
    max_neginf_left, hostRowMax_apply X h' h hu a]

/-- The logarithm of the softmax on the host, at an entry. -/
theorem hostLogSoftmax_apply {n l : ℕ} (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, l]⟩ ![0, 1])
    (h' : (⟨2, ![n, l]⟩ : Shape).ReducesTo [1] ⟨1, ![n]⟩) (h : (⟨2, ![n, l]⟩ : Shape).Reduces [1] ⟨1, ![n]⟩)
    (hu : 0 < (⟨0, ![]⟩ : Shape).numel) (X : FVec Ideal ⟨2, ![n, l]⟩ .f32) (a : Fin n) (c : Fin l) :
    subf (subf X (hostShift hb0 hb1 hb2 h' hu X))
        (broadcastInDim ⟨2, ![n, l]⟩ ![0, 1] hb2 (Host.log (broadcastInDim ⟨2, ![n, 1]⟩ ![0] hb1
          (Host.reduceAdd (Host.exp (subf X (hostShift hb0 hb1 hb2 h' hu X)))
            (constant (⟨0, ![]⟩ : Shape) .f32 0x00000000#32) h' hu)))) (ix2 a c)
      = logSoftmax (cur X) a c := by
  have hd : ∀ k : Fin l, subf X (hostShift hb0 hb1 hb2 h' hu X) (ix2 a k) = X (ix2 a k) - rowMax (cur X) a := fun k => by
    rw [subf_apply, hostShift_apply hb0 hb1 hb2 h' h hu X a k]
  rw [subf_apply, hd c, colBcast_apply hb1 hb2, hostLog_apply, col_apply hb1, hostRowSum_apply _ h' h hu a,
    Finset.sum_congr rfl fun k _ => (hostExp_apply _ (ix2 a k)).trans (congrArg Ideal.exp (hd k))]
  rfl

/-- The logarithm of the softmax on the host is `logSoftmax`. -/
theorem hostLogSoftmax_eq {n l : ℕ} (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, l]⟩ ![0, 1])
    (h' : (⟨2, ![n, l]⟩ : Shape).ReducesTo [1] ⟨1, ![n]⟩) (h : (⟨2, ![n, l]⟩ : Shape).Reduces [1] ⟨1, ![n]⟩)
    (hu : 0 < (⟨0, ![]⟩ : Shape).numel) (X : FVec Ideal ⟨2, ![n, l]⟩ .f32) :
    subf (subf X (hostShift hb0 hb1 hb2 h' hu X))
        (broadcastInDim ⟨2, ![n, l]⟩ ![0, 1] hb2 (Host.log (broadcastInDim ⟨2, ![n, 1]⟩ ![0] hb1
          (Host.reduceAdd (Host.exp (subf X (hostShift hb0 hb1 hb2 h' hu X)))
            (constant (⟨0, ![]⟩ : Shape) .f32 0x00000000#32) h' hu))))
      = unc (logSoftmax (cur X)) :=
  funext fun i => (congrArg _ (eq_ix2 i)).trans (hostLogSoftmax_apply hb0 hb1 hb2 h' h hu X (i 0) (i 1))

/-! ## The reference's operations at its shapes -/

open Facts₀ in
/-- The input projection `h · W_in`. -/
theorem mm_in (A : FVec Ideal S10000x128 .f32) (B : FVec Ideal S128x64 .f32) :
    Host.dotGeneral (F := Ideal) (φ₁ := .f32) (φ₂ := .f32) dot_S10000x128_S128x64_S10000x64_1_0_0_1_n_n none A B = unc (mmf (cur A) (cur B)) :=
  hostMm_eq _ A B

open Facts₀ in
/-- A hidden layer's projection `X · W`. -/
theorem mm_hid (f : Fin 10000 → Fin 64 → EReal) (B : FVec Ideal S64x64 .f32) :
    Host.dotGeneral (F := Ideal) (φ₁ := .f32) (φ₂ := .f32) dot_S10000x64_S64x64_S10000x64_1_0_0_1_n_n none (unc f) B = unc (mmf f (cur B)) :=
  hostMm_eq _ (unc f) B

open Facts₀ in
/-- The output layer's projection `X · W_out`. -/
theorem mm_out (f : Fin 10000 → Fin 64 → EReal) (B : FVec Ideal S64x40 .f32) :
    Host.dotGeneral (F := Ideal) (φ₁ := .f32) (φ₂ := .f32) dot_S10000x64_S64x40_S10000x40_1_0_0_1_n_n none (unc f) B = unc (mmf f (cur B)) :=
  hostMm_eq _ (unc f) B

open Facts₀ in
/-- A hidden layer's aggregation `adj · S + b`. -/
theorem layer_hid (adj : FVec Ideal S10000x10000 .f32) (g : Fin 10000 → Fin 64 → EReal) (b : FVec Ideal S64 .f32) :
    addf (Host.dotGeneral (F := Ideal) (φ₁ := .f32) (φ₂ := .f32) dot_S10000x10000_S10000x64_S10000x64_1_0_0_1_n_n none adj (unc g))
        (broadcastInDim S10000x64 ![0, 1] bcast_S1x64_S10000x64_0_1 (broadcastInDim S1x64 ![1] bcast_S64_S1x64_1 b))
      = unc (logits (cur adj) g (cur1 b)) :=
  hostLayer_eq _ _ _ adj (unc g) b

open Facts₀ in
/-- The output layer's aggregation `adj · S + b_out`. -/
theorem layer_out (adj : FVec Ideal S10000x10000 .f32) (g : Fin 10000 → Fin 40 → EReal) (b : FVec Ideal S40 .f32) :
    addf (Host.dotGeneral (F := Ideal) (φ₁ := .f32) (φ₂ := .f32) dot_S10000x10000_S10000x40_S10000x40_1_0_0_1_n_n none adj (unc g))
        (broadcastInDim S10000x40 ![0, 1] bcast_S1x40_S10000x40_0_1 (broadcastInDim S1x40 ![1] bcast_S40_S1x40_1 b))
      = unc (logits (cur adj) g (cur1 b)) :=
  hostLayer_eq _ _ _ adj (unc g) b

open Facts₀ in
/-- The outlined logarithm of the softmax. -/
theorem lsm (f : Fin 10000 → Fin 40 → EReal) :
    subf (subf (unc f) (hostShift bcast_S_S10000 bcast_S10000_S10000x1_0 bcast_S10000x1_S10000x40_0_1
            reducesTo_S10000x40_S10000_d1 h_S_ (unc f)))
        (broadcastInDim S10000x40 ![0, 1] bcast_S10000x1_S10000x40_0_1 (Host.log (broadcastInDim S10000x1 ![0] bcast_S10000_S10000x1_0
          (Host.reduceAdd (Host.exp (subf (unc f) (hostShift bcast_S_S10000 bcast_S10000_S10000x1_0 bcast_S10000x1_S10000x40_0_1
            reducesTo_S10000x40_S10000_d1 h_S_ (unc f))))
            (constant S_ .f32 0x00000000#32) reducesTo_S10000x40_S10000_d1 h_S_))))
      = unc (logSoftmax f) :=
  hostLogSoftmax_eq _ _ _ _ (by decide) _ (unc f)

/-! ## The reference's result -/

/-- The reference's result is the network of the launch contents of its ten arguments: the innermost product first, each
    layer's aggregation and projection in turn, then the logarithm of the softmax. -/
theorem res_eq (m : (ℓ : Loc nD τ sig) → Buf (Elt Ideal) ℓ) (c : Dev nD) :
    Value.res_main_v20 (F := Ideal) m c
      = unc (net (cur (m ((c.tc : Thread nD τ).loc main_arg0))) (cur (m ((c.tc : Thread nD τ).loc main_arg1))) (cur (m ((c.tc : Thread nD τ).loc main_arg2))) (cur1 (m ((c.tc : Thread nD τ).loc main_arg3)))
        (cur (m ((c.tc : Thread nD τ).loc main_arg4))) (cur1 (m ((c.tc : Thread nD τ).loc main_arg5))) (cur (m ((c.tc : Thread nD τ).loc main_arg6))) (cur1 (m ((c.tc : Thread nD τ).loc main_arg7))) (cur (m ((c.tc : Thread nD τ).loc main_arg8))) (cur1 (m ((c.tc : Thread nD τ).loc main_arg9)))) := by
  unfold Value.res_main_v20
  rw [mm_in, layer_hid, mm_hid, layer_hid, mm_hid, layer_hid, mm_out, layer_out, lsm]
  rfl

/-- Every weakly fair execution of the reference terminates with its result buffer at the network of the arguments' launch
    contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
        = unc (net (cur (m ((c.tc : Thread nD τ).loc main_arg0))) (cur (m ((c.tc : Thread nD τ).loc main_arg1))) (cur (m ((c.tc : Thread nD τ).loc main_arg2))) (cur1 (m ((c.tc : Thread nD τ).loc main_arg3)))
        (cur (m ((c.tc : Thread nD τ).loc main_arg4))) (cur1 (m ((c.tc : Thread nD τ).loc main_arg5))) (cur (m ((c.tc : Thread nD τ).loc main_arg6))) (cur1 (m ((c.tc : Thread nD τ).loc main_arg7))) (cur (m ((c.tc : Thread nD τ).loc main_arg8))) (cur1 (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c => ⟨(h c).1.trans (res_eq m c), (h c).2⟩) (Value.run m ρ)

end Cert.Gcn.RefSide

end
-- ==== Proof.lean ====
/-
  A four-layer graph-convolution network on a dense adjacency, `x ← adj · (x · W) + b` four times and a row-wise
  log-softmax, computed by five sweeps (the first, `h · W_in`, in one piece; three that send the support `S` of a layer to
  the next layer's support `(adj · S + b) · W'` one block of 400 rows of the adjacency at a time; a last one that forms
  `adj · S + b` and normalises each row), against the same network written as whole-array operations.

  Over the extended reals the two programs are the same function of the inputs, operation by operation: the matrix
  products contract the same axes, the bias row is added to every row, the copy of the adjacency in a shorter float
  format is the adjacency itself, and both normalise a row by its maximum (taken from `⊥`), the sum of the exponentials
  and its logarithm. No law of arithmetic beyond reading each operation at an index is used, and the inputs' finiteness
  is never opened.

  The kernel's run with its result buffer named is Proof/KernelRun.lean; the value of each sweep's output array is
  Proof/Region01.lean, Proof/Region23.lean and Proof/Region4.lean; their composition along the run is
  Proof/KernelValue.lean; the reference's run read at an index is Proof/RefValue.lean; the common description of the
  network is Proof/Spec.lean.
-/
import proofs.«181754_g55353538511391_cont_9to1_m_1406_6_alg».proof.Defs
import proofs.«181754_g55353538511391_cont_9to1_m_1406_6_alg».proof.Proof.Gen.Kernel
import proofs.«181754_g55353538511391_cont_9to1_m_1406_6_alg».proof.Proof.Gen.Kernel.Skeleton
import proofs.«181754_g55353538511391_cont_9to1_m_1406_6_alg».proof.Proof.Gen.Kernel.Launch
import proofs.«181754_g55353538511391_cont_9to1_m_1406_6_alg».proof.Proof.Gen.Kernel.Points
import proofs.«181754_g55353538511391_cont_9to1_m_1406_6_alg».proof.Proof.Gen.Kernel.Frame
import proofs.«181754_g55353538511391_cont_9to1_m_1406_6_alg».proof.Proof.Gen.KernelIdeal
import proofs.«181754_g55353538511391_cont_9to1_m_1406_6_alg».proof.Proof.Gen.KernelIdeal.Skeleton
import proofs.«181754_g55353538511391_cont_9to1_m_1406_6_alg».proof.Proof.Gen.KernelIdeal.Launch
import proofs.«181754_g55353538511391_cont_9to1_m_1406_6_alg».proof.Proof.Gen.KernelIdeal.Points
import proofs.«181754_g55353538511391_cont_9to1_m_1406_6_alg».proof.Proof.Gen.KernelIdeal.Frame
import proofs.«181754_g55353538511391_cont_9to1_m_1406_6_alg».proof.Proof.Gen.ReferenceIdeal
import proofs.«181754_g55353538511391_cont_9to1_m_1406_6_alg».proof.Proof.Gen.Pre_finite_inputs
import proofs.«181754_g55353538511391_cont_9to1_m_1406_6_alg».proof.Proof.Spec
import proofs.«181754_g55353538511391_cont_9to1_m_1406_6_alg».proof.Proof.KernelRun
import proofs.«181754_g55353538511391_cont_9to1_m_1406_6_alg».proof.Proof.KernelValue
import proofs.«181754_g55353538511391_cont_9to1_m_1406_6_alg».proof.Proof.RefValue
import Idealize.ShloMosaic.Adequacy
import Idealize.ShloMosaic.Init

noncomputable section

namespace Cert.Proof

open Idealize.ShloMosaic Idealize.ShloMosaic.TcCoe Idealize.SL.Sem Cert.Gcn

/-- The word-level kernel terminates without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gcn.RefSide.run m ρ)

/-- Both programs end with the network of the inputs in their result buffer; the inputs agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => unc (net (KernelSide.aH m c) (KernelSide.aAdj m c) (KernelSide.aWin m c) (KernelSide.bIn m c)
    (KernelSide.aW0 m c) (KernelSide.b0 m c) (KernelSide.aW1 m c) (KernelSide.b1 m c) (KernelSide.aWout m c) (KernelSide.bOut m c)), ?_, ?_⟩
  · exact (θ_run Cert.KernelIdeal.defs _ _).mono
      (fun r h c => ⟨(h c).1.trans (KernelSide.result_eq m ρ c), (h c).2⟩)
      (Cert.KernelIdeal.GenP.run_result (F := Ideal) m ρ)
  · refine (θ_run Cert.ReferenceIdeal.defs _ _).mono (fun r h c => ⟨(h c).1.trans ?_, (h c).2⟩) (Cert.Gcn.RefSide.run m' ρ')
    obtain ⟨a0, a1, a2, a3, a4, a5, a6, a7, a8, a9⟩ := hagree c
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
